-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S40000x128 .f32) (main_arg1 : IVec S2x640000 32) (main_arg2 : FVec F S128x128 .f32) (main_arg3 : FVec F S128 .f32) (main_arg4 : FVec F S128x40 .f32) (main_arg5 : FVec F S40 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S40000 : Shape := ⟨1, ![40000]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S2000x128 : Shape := ⟨2, ![2000, 128]⟩
abbrev S680000x128 : Shape := ⟨2, ![680000, 128]⟩
abbrev S1x128 : Shape := ⟨2, ![1, 128]⟩
abbrev S40000x40 : Shape := ⟨2, ![40000, 40]⟩
abbrev S2000x40 : Shape := ⟨2, ![2000, 40]⟩
abbrev S680000x40 : Shape := ⟨2, ![680000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 77
  | .vmem => 20
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S40000, .i32⟩
  | .hbm, ⟨7, _⟩ => ⟨S1x640000, .i32⟩
  | .hbm, ⟨8, _⟩ => ⟨S640000, .i32⟩
  | .hbm, ⟨9, _⟩ => ⟨S680000, .i32⟩
  | .hbm, ⟨10, _⟩ => ⟨S1x640000, .i32⟩
  | .hbm, ⟨11, _⟩ => ⟨S640000, .i32⟩
  | .hbm, ⟨12, _⟩ => ⟨S680000, .i32⟩
  | .hbm, ⟨13, _⟩ => ⟨S_, .f32⟩
  | .hbm, ⟨14, _⟩ => ⟨S680000, .f32⟩
  | .hbm, ⟨15, _⟩ => ⟨S_, .f32⟩
  | .hbm, ⟨16, _⟩ => ⟨S40000, .f32⟩
  | .hbm, ⟨17, _⟩ => ⟨S680000x1, .i32⟩
  | .hbm, ⟨18, _⟩ => ⟨S40000, .f32⟩
  | .hbm, ⟨19, _⟩ => ⟨S40000, .f32⟩
  | .hbm, ⟨20, _⟩ => ⟨S_, .i32⟩
  | .hbm, ⟨21, _⟩ => ⟨S680000, .i32⟩
  | .hbm, ⟨22, _⟩ => ⟨S680000, .i1⟩
  | .hbm, ⟨23, _⟩ => ⟨S_, .i32⟩
  | .hbm, ⟨24, _⟩ => ⟨S680000, .i32⟩
  | .hbm, ⟨25, _⟩ => ⟨S680000, .i32⟩
  | .hbm, ⟨26, _⟩ => ⟨S680000, .i32⟩
  | .hbm, ⟨27, _⟩ => ⟨S680000x1, .i32⟩
  | .hbm, ⟨28, _⟩ => ⟨S680000, .f32⟩
  | .hbm, ⟨29, _⟩ => ⟨S_, .i32⟩
  | .hbm, ⟨30, _⟩ => ⟨S680000, .i32⟩
  | .hbm, ⟨31, _⟩ => ⟨S680000, .i1⟩
  | .hbm, ⟨32, _⟩ => ⟨S_, .i32⟩
  | .hbm, ⟨33, _⟩ => ⟨S680000, .i32⟩
  | .hbm, ⟨34, _⟩ => ⟨S680000, .i32⟩
  | .hbm, ⟨35, _⟩ => ⟨S680000, .i32⟩
  | .hbm, ⟨36, _⟩ => ⟨S680000x1, .i32⟩
  | .hbm, ⟨37, _⟩ => ⟨S680000, .f32⟩
  | .hbm, ⟨38, _⟩ => ⟨S680000, .f32⟩
  | .hbm, ⟨39, _⟩ => ⟨S40000x128, .f32⟩
  | .hbm, ⟨40, _⟩ => ⟨S_, .i32⟩
  | .hbm, ⟨41, _⟩ => ⟨S680000, .i32⟩
  | .hbm, ⟨42, _⟩ => ⟨S680000, .i1⟩
  | .hbm, ⟨43, _⟩ => ⟨S_, .i32⟩
  | .hbm, ⟨44, _⟩ => ⟨S680000, .i32⟩
  | .hbm, ⟨45, _⟩ => ⟨S680000, .i32⟩
  | .hbm, ⟨46, _⟩ => ⟨S680000, .i32⟩
  | .hbm, ⟨47, _⟩ => ⟨S680000x1, .i32⟩
  | .hbm, ⟨48, _⟩ => ⟨S680000x128, .f32⟩
  | .hbm, ⟨49, _⟩ => ⟨S680000x1, .f32⟩
  | .hbm, ⟨50, _⟩ => ⟨S680000x128, .f32⟩
  | .hbm, ⟨51, _⟩ => ⟨S680000x128, .f32⟩
  | .hbm, ⟨52, _⟩ => ⟨S_, .f32⟩
  | .hbm, ⟨53, _⟩ => ⟨S40000x128, .f32⟩
  | .hbm, ⟨54, _⟩ => ⟨S680000x1, .i32⟩
  | .hbm, ⟨55, _⟩ => ⟨S40000x128, .f32⟩
  | .hbm, ⟨56, _⟩ => ⟨S1x128, .f32⟩
  | .hbm, ⟨57, _⟩ => ⟨S40000x128, .f32⟩
  | .hbm, ⟨58, _⟩ => ⟨S40000x40, .f32⟩
  | .hbm, ⟨59, _⟩ => ⟨S_, .i32⟩
  | .hbm, ⟨60, _⟩ => ⟨S680000, .i32⟩
  | .hbm, ⟨61, _⟩ => ⟨S680000, .i1⟩
  | .hbm, ⟨62, _⟩ => ⟨S_, .i32⟩
  | .hbm, ⟨63, _⟩ => ⟨S680000, .i32⟩
  | .hbm, ⟨64, _⟩ => ⟨S680000, .i32⟩
  | .hbm, ⟨65, _⟩ => ⟨S680000, .i32⟩
  | .hbm, ⟨66, _⟩ => ⟨S680000x1, .i32⟩
  | .hbm, ⟨67, _⟩ => ⟨S680000x40, .f32⟩
  | .hbm, ⟨68, _⟩ => ⟨S680000x1, .f32⟩
  | .hbm, ⟨69, _⟩ => ⟨S680000x40, .f32⟩
  | .hbm, ⟨70, _⟩ => ⟨S680000x40, .f32⟩
  | .hbm, ⟨71, _⟩ => ⟨S_, .f32⟩
  | .hbm, ⟨72, _⟩ => ⟨S40000x40, .f32⟩
  | .hbm, ⟨73, _⟩ => ⟨S680000x1, .i32⟩
  | .hbm, ⟨74, _⟩ => ⟨S40000x40, .f32⟩
  | .hbm, ⟨75, _⟩ => ⟨S1x40, .f32⟩
  | .hbm, ⟨76, _⟩ => ⟨S40000x40, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x40, .f32⟩
  | .local _ .vmem, ⟨13, _⟩ => ⟨S2000x40, .f32⟩
  | .local _ .vmem, ⟨14, _⟩ => ⟨S2000x40, .f32⟩
  | .local _ .vmem, ⟨15, _⟩ => ⟨S2000x40, .f32⟩
  | .local _ .vmem, ⟨16, _⟩ => ⟨S2000x40, .f32⟩
  | .local _ .vmem, ⟨17, _⟩ => ⟨S1x40, .f32⟩
  | .local _ .vmem, ⟨18, _⟩ => ⟨S2000x40, .f32⟩
  | .local _ .vmem, ⟨19, _⟩ => ⟨S2000x40, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S680000x1_S680000x128_0_1 : S680000x1.BroadcastsInDim S680000x128 (![0, 1] : Fin 2 → Fin S680000x128.rank)
  bcast_S_S40000x128 : S_.BroadcastsInDim S40000x128 (![] : Fin 0 → Fin S40000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S680000x1_S680000x40_0_1 : S680000x1.BroadcastsInDim S680000x40 (![0, 1] : Fin 2 → Fin S680000x40.rank)
  bcast_S_S40000x40 : S_.BroadcastsInDim S40000x40 (![] : Fin 0 → Fin S40000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  dot_S2000x128_S128x128_S2000x128_1_0_0_1_n_n_wf : DotDims.WF S2000x128 S128x128 S2000x128 [1] [0] [0] [1] [] []
  gather_S40000x128_S680000x1_S680000x128_1_0_n_n_0_1_1128_wf : GatherDims.WF S40000x128 S680000x1 S680000x128 [1] [0] [] [0] [] 1 ![1, 128]
  scatter_S40000x128_S680000x1_S680000x128_1_0_0_1_wf : ScatterDims.WF S40000x128 S680000x1 S680000x128 [1] [0] [0] 1
  dot_S2000x128_S128x40_S2000x40_1_0_0_1_n_n_wf : DotDims.WF S2000x128 S128x40 S2000x40 [1] [0] [0] [1] [] []
  gather_S40000x40_S680000x1_S680000x40_1_0_n_n_0_1_140_wf : GatherDims.WF S40000x40 S680000x1 S680000x40 [1] [0] [] [0] [] 1 ![1, 40]
  scatter_S40000x40_S680000x1_S680000x40_1_0_0_1_wf : ScatterDims.WF S40000x40 S680000x1 S680000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S40000x128.size a
  hwx0_2 : ∀ i : grid0.Coords, EltTy.bits .f32 = 32 ∨ (Rect.block (s := S40000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S40000x128.size a
  hwx1_0 : ∀ i : grid1.Coords, EltTy.bits .f32 = 32 ∨ (Rect.block (s := S40000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S40000x128.size a
  hwx1_2 : ∀ i : grid1.Coords, EltTy.bits .f32 = 32 ∨ (Rect.block (s := S40000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S40000x128.size a
  hwx2_0 : ∀ i : grid2.Coords, EltTy.bits .f32 = 32 ∨ (Rect.block (s := S40000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S40000x40.size a
  hwx2_2 : ∀ i : grid2.Coords, EltTy.bits .f32 = 32 ∨ (Rect.block (s := S40000x40) S2000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S40000x40.size a
  hwx3_0 : ∀ i : grid3.Coords, EltTy.bits .f32 = 32 ∨ (Rect.block (s := S40000x40) S2000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x40.size a ≤ S40000x40.size a
  hwx3_2 : ∀ i : grid3.Coords, EltTy.bits .f32 = 32 ∨ (Rect.block (s := S40000x40) S2000x40.size (cc3_transform_2 i) (hinb3_2 i)).WholeWords (EltTy.packing .f32)

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def scatter_S40000x128_S680000x1_S680000x128_1_0_0_1 : ScatterDims S40000x128 S680000x1 S680000x128 where
  updateWindowDims := [1]
  insertedWindowDims := [0]
  scatterDimsToOperandDims := [0]
  indexVectorDim := 1
  wf := scatter_S40000x128_S680000x1_S680000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S40000x40_S680000x1_S680000x40_1_0_n_n_0_1_140 : GatherDims S40000x40 S680000x1 S680000x40 where
  offsetDims := [1]
  collapsedSliceDims := [0]
  operandBatchingDims := []
  startIndicesBatchingDims := []
  startIndexMap := [0]
  indexVectorDim := 1
  sliceSizes := ![1, 40]
  wf := gather_S40000x40_S680000x1_S680000x40_1_0_n_n_0_1_140_wf
def scatter_S40000x40_S680000x1_S680000x40_1_0_0_1 : ScatterDims S40000x40 S680000x1 S680000x40 where
  updateWindowDims := [1]
  insertedWindowDims := [0]
  scatterDimsToOperandDims := [0]
  indexVectorDim := 1
  wf := scatter_S40000x40_S680000x1_S680000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S2000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S40000 : Shape := ⟨1, ![40000]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S680000x128 : Shape := ⟨2, ![680000, 128]⟩
abbrev S1x128 : Shape := ⟨2, ![1, 128]⟩
abbrev S40000x40 : Shape := ⟨2, ![40000, 40]⟩
abbrev S680000x40 : Shape := ⟨2, ![680000, 40]⟩
abbrev S1x40 : Shape := ⟨2, ![1, 40]⟩
abbrev S40000x1 : Shape := ⟨2, ![40000, 1]⟩

abbrev nBuf : Space → Nat
  | .hbm => 123
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S40000, .i32⟩
  | .hbm, ⟨7, _⟩ => ⟨S1x640000, .i32⟩
  | .hbm, ⟨8, _⟩ => ⟨S640000, .i32⟩
  | .hbm, ⟨9, _⟩ => ⟨S680000, .i32⟩
  | .hbm, ⟨10, _⟩ => ⟨S1x640000, .i32⟩
  | .hbm, ⟨11, _⟩ => ⟨S640000, .i32⟩
  | .hbm, ⟨12, _⟩ => ⟨S680000, .i32⟩
  | .hbm, ⟨13, _⟩ => ⟨S40000x128, .f32⟩
  | .hbm, ⟨14, _⟩ => ⟨S_, .f32⟩
  | .hbm, ⟨15, _⟩ => ⟨S680000, .f32⟩
  | .hbm, ⟨16, _⟩ => ⟨S_, .f32⟩
  | .hbm, ⟨17, _⟩ => ⟨S40000, .f32⟩
  | .hbm, ⟨18, _⟩ => ⟨S680000x1, .i32⟩
  | .hbm, ⟨19, _⟩ => ⟨S40000, .f32⟩
  | .hbm, ⟨20, _⟩ => ⟨S40000, .f32⟩
  | .hbm, ⟨21, _⟩ => ⟨S_, .i32⟩
  | .hbm, ⟨22, _⟩ => ⟨S680000, .i32⟩
  | .hbm, ⟨23, _⟩ => ⟨S680000, .i1⟩
  | .hbm, ⟨24, _⟩ => ⟨S_, .i32⟩
  | .hbm, ⟨25, _⟩ => ⟨S680000, .i32⟩
  | .hbm, ⟨26, _⟩ => ⟨S680000, .i32⟩
  | .hbm, ⟨27, _⟩ => ⟨S680000, .i32⟩
  | .hbm, ⟨28, _⟩ => ⟨S680000x1, .i32⟩
  | .hbm, ⟨29, _⟩ => ⟨S680000, .f32⟩
  | .hbm, ⟨30, _⟩ => ⟨S_, .i32⟩
  | .hbm, ⟨31, _⟩ => ⟨S680000, .i32⟩
  | .hbm, ⟨32, _⟩ => ⟨S680000, .i1⟩
  | .hbm, ⟨33, _⟩ => ⟨S_, .i32⟩
  | .hbm, ⟨34, _⟩ => ⟨S680000, .i32⟩
  | .hbm, ⟨35, _⟩ => ⟨S680000, .i32⟩
  | .hbm, ⟨36, _⟩ => ⟨S680000, .i32⟩
  | .hbm, ⟨37, _⟩ => ⟨S680000x1, .i32⟩
  | .hbm, ⟨38, _⟩ => ⟨S680000, .f32⟩
  | .hbm, ⟨39, _⟩ => ⟨S680000, .f32⟩
  | .hbm, ⟨40, _⟩ => ⟨S_, .i32⟩
  | .hbm, ⟨41, _⟩ => ⟨S680000, .i32⟩
  | .hbm, ⟨42, _⟩ => ⟨S680000, .i1⟩
  | .hbm, ⟨43, _⟩ => ⟨S_, .i32⟩
  | .hbm, ⟨44, _⟩ => ⟨S680000, .i32⟩
  | .hbm, ⟨45, _⟩ => ⟨S680000, .i32⟩
  | .hbm, ⟨46, _⟩ => ⟨S680000, .i32⟩
  | .hbm, ⟨47, _⟩ => ⟨S680000x1, .i32⟩
  | .hbm, ⟨48, _⟩ => ⟨S680000x128, .f32⟩
  | .hbm, ⟨49, _⟩ => ⟨S680000x1, .f32⟩
  | .hbm, ⟨50, _⟩ => ⟨S680000x128, .f32⟩
  | .hbm, ⟨51, _⟩ => ⟨S680000x128, .f32⟩
  | .hbm, ⟨52, _⟩ => ⟨S_, .f32⟩
  | .hbm, ⟨53, _⟩ => ⟨S40000x128, .f32⟩
  | .hbm, ⟨54, _⟩ => ⟨S680000x1, .i32⟩
  | .hbm, ⟨55, _⟩ => ⟨S40000x128, .f32⟩
  | .hbm, ⟨56, _⟩ => ⟨S1x128, .f32⟩
  | .hbm, ⟨57, _⟩ => ⟨S40000x128, .f32⟩
  | .hbm, ⟨58, _⟩ => ⟨S40000x128, .f32⟩
  | .hbm, ⟨59, _⟩ => ⟨S_, .f32⟩
  | .hbm, ⟨60, _⟩ => ⟨S40000x128, .f32⟩
  | .hbm, ⟨61, _⟩ => ⟨S40000x128, .f32⟩
  | .hbm, ⟨62, _⟩ => ⟨S40000x40, .f32⟩
  | .hbm, ⟨63, _⟩ => ⟨S_, .f32⟩
  | .hbm, ⟨64, _⟩ => ⟨S680000, .f32⟩
  | .hbm, ⟨65, _⟩ => ⟨S_, .f32⟩
  | .hbm, ⟨66, _⟩ => ⟨S40000, .f32⟩
  | .hbm, ⟨67, _⟩ => ⟨S680000x1, .i32⟩
  | .hbm, ⟨68, _⟩ => ⟨S40000, .f32⟩
  | .hbm, ⟨69, _⟩ => ⟨S40000, .f32⟩
  | .hbm, ⟨70, _⟩ => ⟨S_, .i32⟩
  | .hbm, ⟨71, _⟩ => ⟨S680000, .i32⟩
  | .hbm, ⟨72, _⟩ => ⟨S680000, .i1⟩
  | .hbm, ⟨73, _⟩ => ⟨S_, .i32⟩
  | .hbm, ⟨74, _⟩ => ⟨S680000, .i32⟩
  | .hbm, ⟨75, _⟩ => ⟨S680000, .i32⟩
  | .hbm, ⟨76, _⟩ => ⟨S680000, .i32⟩
  | .hbm, ⟨77, _⟩ => ⟨S680000x1, .i32⟩
  | .hbm, ⟨78, _⟩ => ⟨S680000, .f32⟩
  | .hbm, ⟨79, _⟩ => ⟨S_, .i32⟩
  | .hbm, ⟨80, _⟩ => ⟨S680000, .i32⟩
  | .hbm, ⟨81, _⟩ => ⟨S680000, .i1⟩
  | .hbm, ⟨82, _⟩ => ⟨S_, .i32⟩
  | .hbm, ⟨83, _⟩ => ⟨S680000, .i32⟩
  | .hbm, ⟨84, _⟩ => ⟨S680000, .i32⟩
  | .hbm, ⟨85, _⟩ => ⟨S680000, .i32⟩
  | .hbm, ⟨86, _⟩ => ⟨S680000x1, .i32⟩
  | .hbm, ⟨87, _⟩ => ⟨S680000, .f32⟩
  | .hbm, ⟨88, _⟩ => ⟨S680000, .f32⟩
  | .hbm, ⟨89, _⟩ => ⟨S_, .i32⟩
  | .hbm, ⟨90, _⟩ => ⟨S680000, .i32⟩
  | .hbm, ⟨91, _⟩ => ⟨S680000, .i1⟩
  | .hbm, ⟨92, _⟩ => ⟨S_, .i32⟩
  | .hbm, ⟨93, _⟩ => ⟨S680000, .i32⟩
  | .hbm, ⟨94, _⟩ => ⟨S680000, .i32⟩
  | .hbm, ⟨95, _⟩ => ⟨S680000, .i32⟩
  | .hbm, ⟨96, _⟩ => ⟨S680000x1, .i32⟩
  | .hbm, ⟨97, _⟩ => ⟨S680000x40, .f32⟩
  | .hbm, ⟨98, _⟩ => ⟨S680000x1, .f32⟩
  | .hbm, ⟨99, _⟩ => ⟨S680000x40, .f32⟩
  | .hbm, ⟨100, _⟩ => ⟨S680000x40, .f32⟩
  | .hbm, ⟨101, _⟩ => ⟨S_, .f32⟩
  | .hbm, ⟨102, _⟩ => ⟨S40000x40, .f32⟩
  | .hbm, ⟨103, _⟩ => ⟨S680000x1, .i32⟩
  | .hbm, ⟨104, _⟩ => ⟨S40000x40, .f32⟩
  | .hbm, ⟨105, _⟩ => ⟨S1x40, .f32⟩
  | .hbm, ⟨106, _⟩ => ⟨S40000x40, .f32⟩
  | .hbm, ⟨107, _⟩ => ⟨S40000x40, .f32⟩
  | .hbm, ⟨108, _⟩ => ⟨S_, .f32⟩
  | .hbm, ⟨109, _⟩ => ⟨S40000, .f32⟩
  | .hbm, ⟨110, _⟩ => ⟨S_, .f32⟩
  | .hbm, ⟨111, _⟩ => ⟨S40000, .f32⟩
  | .hbm, ⟨112, _⟩ => ⟨S40000, .f32⟩
  | .hbm, ⟨113, _⟩ => ⟨S40000x1, .f32⟩
  | .hbm, ⟨114, _⟩ => ⟨S40000x40, .f32⟩
  | .hbm, ⟨115, _⟩ => ⟨S40000x40, .f32⟩
  | .hbm, ⟨116, _⟩ => ⟨S40000x40, .f32⟩
  | .hbm, ⟨117, _⟩ => ⟨S_, .f32⟩
  | .hbm, ⟨118, _⟩ => ⟨S40000, .f32⟩
  | .hbm, ⟨119, _⟩ => ⟨S40000x1, .f32⟩
  | .hbm, ⟨120, _⟩ => ⟨S40000x1, .f32⟩
  | .hbm, ⟨121, _⟩ => ⟨S40000x40, .f32⟩
  | .hbm, ⟨122, _⟩ => ⟨S40000x40, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_call1_cst : Ref sig .tc := ⟨.hbm, 108, rfl⟩
abbrev main_call1_v0 : Ref sig .tc := ⟨.hbm, 109, rfl⟩
abbrev main_call1_cst_0 : Ref sig .tc := ⟨.hbm, 110, rfl⟩
abbrev main_call1_v1 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_call1_v5 : Ref sig .tc := ⟨.hbm, 115, rfl⟩
abbrev main_call1_v6 : Ref sig .tc := ⟨.hbm, 116, rfl⟩
abbrev main_call1_cst_1 : Ref sig .tc := ⟨.hbm, 117, rfl⟩
abbrev main_call1_v7 : Ref sig .tc := ⟨.hbm, 118, rfl⟩
abbrev main_call1_v8 : Ref sig .tc := ⟨.hbm, 119, rfl⟩
abbrev main_call1_v9 : Ref sig .tc := ⟨.hbm, 120, rfl⟩
abbrev main_call1_v10 : Ref sig .tc := ⟨.hbm, 121, rfl⟩
abbrev main_v82 : Ref sig .tc := ⟨.hbm, 122, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  bcast_S680000x1_S680000x128_0_1 : S680000x1.BroadcastsInDim S680000x128 (![0, 1] : Fin 2 → Fin S680000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S680000x1_S680000x40_0_1 : S680000x1.BroadcastsInDim S680000x40 (![0, 1] : Fin 2 → Fin S680000x40.rank)
  bcast_S_S40000x40 : S_.BroadcastsInDim S40000x40 (![] : Fin 0 → Fin S40000x40.rank)
  bcast_S40_S1x40_1 : S40.BroadcastsInDim S1x40 (![1] : Fin 1 → Fin S1x40.rank)
  bcast_S1x40_S40000x40_0_1 : S1x40.BroadcastsInDim S40000x40 (![0, 1] : Fin 2 → Fin S40000x40.rank)
  reducesTo_S40000x40_S40000_d1 : S40000x40.ReducesTo [1] S40000
  h_S_ : 0 < S_.numel
  bcast_S40000_S40000x1_0 : S40000.BroadcastsInDim S40000x1 (![0] : Fin 1 → Fin S40000x1.rank)
  bcast_S40000x1_S40000x40_0_1 : S40000x1.BroadcastsInDim S40000x40 (![0, 1] : Fin 2 → Fin S40000x40.rank)
  dot_S40000x128_S128x128_S40000x128_1_0_0_1_n_n_wf : DotDims.WF S40000x128 S128x128 S40000x128 [1] [0] [0] [1] [] []
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  gather_S40000x128_S680000x1_S680000x128_1_0_n_n_0_1_1128_wf : GatherDims.WF S40000x128 S680000x1 S680000x128 [1] [0] [] [0] [] 1 ![1, 128]
  scatter_S40000x128_S680000x1_S680000x128_1_0_0_1_wf : ScatterDims.WF S40000x128 S680000x1 S680000x128 [1] [0] [0] 1
  dot_S40000x128_S128x40_S40000x40_1_0_0_1_n_n_wf : DotDims.WF S40000x128 S128x40 S40000x40 [1] [0] [0] [1] [] []
  gather_S40000x40_S680000x1_S680000x40_1_0_n_n_0_1_140_wf : GatherDims.WF S40000x40 S680000x1 S680000x40 [1] [0] [] [0] [] 1 ![1, 40]
  scatter_S40000x40_S680000x1_S680000x40_1_0_0_1_wf : ScatterDims.WF S40000x40 S680000x1 S680000x40 [1] [0] [0] 1

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def scatter_S40000x128_S680000x1_S680000x128_1_0_0_1 : ScatterDims S40000x128 S680000x1 S680000x128 where
  updateWindowDims := [1]
  insertedWindowDims := [0]
  scatterDimsToOperandDims := [0]
  indexVectorDim := 1
  wf := scatter_S40000x128_S680000x1_S680000x128_1_0_0_1_wf
def dot_S40000x128_S128x40_S40000x40_1_0_0_1_n_n : DotDims S40000x128 S128x40 S40000x40 where
  lhsContracting := [1]
  rhsContracting := [0]
  lhsNonContracting := [0]
  rhsNonContracting := [1]
  lhsBatch := []
  rhsBatch := []
  wf := dot_S40000x128_S128x40_S40000x40_1_0_0_1_n_n_wf
def gather_S40000x40_S680000x1_S680000x40_1_0_n_n_0_1_140 : GatherDims S40000x40 S680000x1 S680000x40 where
  offsetDims := [1]
  collapsedSliceDims := [0]
  operandBatchingDims := []
  startIndicesBatchingDims := []
  startIndexMap := [0]
  indexVectorDim := 1
  sliceSizes := ![1, 40]
  wf := gather_S40000x40_S680000x1_S680000x40_1_0_n_n_0_1_140_wf
def scatter_S40000x40_S680000x1_S680000x40_1_0_0_1 : ScatterDims S40000x40 S680000x1 S680000x40 where
  updateWindowDims := [1]
  insertedWindowDims := [0]
  scatterDimsToOperandDims := [0]
  indexVectorDim := 1
  wf := scatter_S40000x40_S680000x1_S680000x40_1_0_0_1_wf

class Facts : Prop extends Facts₀ where

variable [Facts]
-- ==== Proof.KernelRun.lean ====
/-
  The idealized kernel's run with its result named. Every weakly fair execution of the program — four kernel launches
  among three stretches of host operations — terminates without a fault, and in the final state the result array holds
  what the last boundary of the run holds there (the contents `W7` of the generated frame: the fourth launch's output
  array after its write-backs), while the six argument arrays are as launched. The run is the one the generated frame
  makes; only what is read off its last state differs: one more buffer, the result's.
-/
import proofs.«101711_j9938554323112_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the program with the result array read at the last boundary's contents, the arguments as launched. -/
theorem run_result : θ_run defs (onTc (τ := τ) (main (F := F))) ⟨m, fun _ => 0, ρ⟩ (fun r => ∀ c : Dev nD,
      r.2.mem ((c.tc : Thread nD τ).loc main_v58) = W7 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v58 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Result

end
-- ==== Proof.LibRowSteps.lean ====
/-
  Reusable definitions and lemmas: three dense steps of a graph network on whole arrays, and their row locality.

  The three dense steps of a two-layer graph convolution, each as one function of whole arrays over the extended
  reals, entry by entry, and the fact the proof rests on: every step is ROW-LOCAL. Row p of the result reads row p
  of its first operand and nothing else of it (the second operand — a weight matrix, or a bias row — is read whole),
  so a block of consecutive rows of the result is the same step applied to that block of rows.

    dense x w      [p, q] = Σ_k x[p, k] · w[k, q]                              (a feature transform)
    biasClamp a b  [p, q] = max (a[p, q] + b[0, q]) 0                          (bias, then clamp at zero)
    logSoftmax a b [p, q] = v[p, q] − M_p − log Σ_j exp (v[p, j] − M_p),       v = a + b[0, ·],  M_p = max_j v[p, j]

  The row maximum is the fold of max from −∞ and the two float literals stay the words the programs print (zero and
  −∞ in f32): the same word stands on both sides of every comparison, so neither is ever evaluated. Generic in the
  extents.
-/
import Idealize.ShloMosaic.PureOps.Ideal
import Idealize.ShloMosaic.Lib.ValueIdx

noncomputable section

namespace Cert.Gcn

open Idealize.ShloMosaic Idealize.ShloMosaic.ValueIdx

/-- An [a, b] array over the extended reals. -/
abbrev Mat (a b : ℕ) : Type := (⟨2, ![a, b]⟩ : Shape).Idx → EReal

variable {n n' k c : ℕ}

/-- The f32 word of zero and of −∞ as extended reals (kept as words). -/
abbrev zeroW : EReal := Ideal.ofBits .f32 0x00000000#32
abbrev negInfW : EReal := Ideal.ofBits .f32 0xFF800000#32

/-- Row p of a matrix times a matrix, at column q. -/
def denseAt (x : Mat n k) (w : Mat k c) (p : Fin n) (q : Fin c) : EReal := ∑ j : Fin k, x (ix2 p j) * w (ix2 j q)

/-- The matrix product, entry by entry. -/
def dense (x : Mat n k) (w : Mat k c) : Mat n c := fun i => denseAt x w (i 0) (i 1)

theorem dense_apply (x : Mat n k) (w : Mat k c) (p : Fin n) (q : Fin c) :
    dense x w (ix2 p q) = ∑ j : Fin k, x (ix2 p j) * w (ix2 j q) := rfl

/-- Bias row added to every row, then the clamp at zero. -/
def biasClampAt (a : Mat n c) (b : Mat 1 c) (p : Fin n) (q : Fin c) : EReal := max (a (ix2 p q) + b (ix2 0 q)) zeroW

def biasClamp (a : Mat n c) (b : Mat 1 c) : Mat n c := fun i => biasClampAt a b (i 0) (i 1)

theorem biasClamp_apply (a : Mat n c) (b : Mat 1 c) (p : Fin n) (q : Fin c) :
    biasClamp a b (ix2 p q) = max (a (ix2 p q) + b (ix2 0 q)) zeroW := rfl

/-- Row p of a + b, as a function of the column. -/
def shifted (a : Mat n c) (b : Mat 1 c) (p : Fin n) : Fin c → EReal := fun j => a (ix2 p j) + b (ix2 0 j)

/-- The maximum of a row, folded from −∞. -/
def rowMax (v : Fin c → EReal) : EReal := (Finset.univ : Finset (Fin c)).fold max negInfW v

/-- The log-softmax of a row v at column q. -/
def logSoftmaxRow (v : Fin c → EReal) (q : Fin c) : EReal :=
  (v q - rowMax v) - Ideal.log (∑ j : Fin c, Ideal.exp (v j - rowMax v))

def logSoftmax (a : Mat n c) (b : Mat 1 c) : Mat n c := fun i => logSoftmaxRow (shifted a b (i 0)) (i 1)

theorem logSoftmax_apply (a : Mat n c) (b : Mat 1 c) (p : Fin n) (q : Fin c) :
    logSoftmax a b (ix2 p q) = logSoftmaxRow (shifted a b p) q := rfl

/-! ## Row locality: a row of the result only reads that row of the first operand -/

theorem dense_row_congr (x : Mat n k) (x' : Mat n' k) (w : Mat k c) (p : Fin n) (p' : Fin n')
    (h : ∀ j : Fin k, x (ix2 p j) = x' (ix2 p' j)) (q : Fin c) :
    dense x w (ix2 p q) = dense x' w (ix2 p' q) := by
  rw [dense_apply, dense_apply]
  exact Finset.sum_congr rfl fun j _ => by rw [h j]

theorem biasClamp_row_congr (a : Mat n c) (a' : Mat n' c) (b : Mat 1 c) (p : Fin n) (p' : Fin n')
    (h : ∀ j : Fin c, a (ix2 p j) = a' (ix2 p' j)) (q : Fin c) :
    biasClamp a b (ix2 p q) = biasClamp a' b (ix2 p' q) := by
  rw [biasClamp_apply, biasClamp_apply, h q]

theorem logSoftmax_row_congr (a : Mat n c) (a' : Mat n' c) (b : Mat 1 c) (p : Fin n) (p' : Fin n')
    (h : ∀ j : Fin c, a (ix2 p j) = a' (ix2 p' j)) (q : Fin c) :
    logSoftmax a b (ix2 p q) = logSoftmax a' b (ix2 p' q) := by
  rw [logSoftmax_apply, logSoftmax_apply]
  have e : shifted a b p = shifted a' b p' := funext fun j => by unfold shifted; rw [h j]
  rw [e]

/-! ## The same, between a block of rows and the whole array: the entry i' of the array and the entry j of the block
    agree as soon as the operands agree on what that entry reads -/

theorem dense_transfer (xb : Mat n' k) (wb : Mat k c) (x : Mat n k) (w : Mat k c)
    (j : (⟨2, ![n', c]⟩ : Shape).Idx) (i : (⟨2, ![n, c]⟩ : Shape).Idx)
    (hx : ∀ l : Fin k, xb (ix2 (j 0) l) = x (ix2 (i 0) l)) (hw : ∀ l : Fin k, wb (ix2 l (j 1)) = w (ix2 l (i 1))) :
    dense xb wb j = dense x w i := by
  unfold dense denseAt
  exact Finset.sum_congr rfl fun l _ => by rw [hx l, hw l]

theorem biasClamp_transfer (ab : Mat n' c) (bb : Mat 1 c) (a : Mat n c) (b : Mat 1 c)
    (j : (⟨2, ![n', c]⟩ : Shape).Idx) (i : (⟨2, ![n, c]⟩ : Shape).Idx)
    (ha : ab (ix2 (j 0) (j 1)) = a (ix2 (i 0) (i 1))) (hb : bb (ix2 0 (j 1)) = b (ix2 0 (i 1))) :
    biasClamp ab bb j = biasClamp a b i := by
  unfold biasClamp biasClampAt
  rw [ha, hb]

theorem logSoftmax_transfer (ab : Mat n' c) (bb : Mat 1 c) (a : Mat n c) (b : Mat 1 c)
    (j : (⟨2, ![n', c]⟩ : Shape).Idx) (i : (⟨2, ![n, c]⟩ : Shape).Idx)
    (ha : ∀ l : Fin c, ab (ix2 (j 0) l) = a (ix2 (i 0) l)) (hb : ∀ l : Fin c, bb (ix2 0 l) = b (ix2 0 l))
    (hq : (j 1 : Fin c) = i 1) :
    logSoftmax ab bb j = logSoftmax a b i := by
  unfold logSoftmax
  have e : shifted ab bb (j 0) = shifted a b (i 0) := funext fun l => by unfold shifted; rw [ha l, hb l]
  rw [e, hq]

end Cert.Gcn

end
-- ==== Proof.HostChain.lean ====
/-
  The part of the computation both programs leave to the host, as named functions: the graph with its self-loops and
  the neighbour aggregation. Both programs spell these steps with the same operations, so the proof never opens them:
  it only needs them as the SAME functions on both sides.

    srcOf ei, dstOf ei : the source and target of each of the 680000 edges (the 640000 given ones, then one loop per node)
    wrapIdx v          : a negative index counted from the end (v < 0 ? v + 40000 : v)
    degInv ei          : 1/sqrt of each node's in-degree (ones scattered to the targets, then rsqrt)
    normOf ei          : per edge, degInv at its source times degInv at its target
    aggregate          : rows gathered at the sources, scaled by the edge's factor, summed into the targets
-/
import proofs.«101711_j9938554323112_1_alg».proof.KernelIdeal

noncomputable section

namespace Cert.Gcn.Host

open Idealize.ShloMosaic Cert.KernelIdeal Cert.KernelIdeal.Facts₀ Cert.KernelIdeal.Facts

variable {F : FTy → Type} [FloatOps F] [Cert.KernelIdeal.Facts]

/-- Each edge's source: row 0 of the edge list, then the nodes themselves. -/
def srcOf (ei : (⟨S2x640000, .i32⟩ : BufTy).Contents (Elt F)) : (⟨S680000, .i32⟩ : BufTy).Contents (Elt F) :=
  concatenate S680000 0 [⟨S640000, (shapeCast _ (extractStridedSlice S1x640000 ![0, 0] ei slices_S2x640000_S1x640000_0_0) shapeCasts_S1x640000_S640000)⟩, ⟨S40000, (iotaInDim S40000 32 0)⟩] concatenates_S640000_S40000_S680000_d0

/-- Each edge's target: row 1 of the edge list, then the nodes themselves. -/
def dstOf (ei : (⟨S2x640000, .i32⟩ : BufTy).Contents (Elt F)) : (⟨S680000, .i32⟩ : BufTy).Contents (Elt F) :=
  concatenate S680000 0 [⟨S640000, (shapeCast _ (extractStridedSlice S1x640000 ![1, 0] ei slices_S2x640000_S1x640000_1_0) shapeCasts_S1x640000_S640000)⟩, ⟨S40000, (iotaInDim S40000 32 0)⟩] concatenates_S640000_S40000_S680000_d0

/-- A negative index counts from the end. -/
def wrapIdx (v : (⟨S680000, .i32⟩ : BufTy).Contents (Elt F)) : (⟨S680000, .i32⟩ : BufTy).Contents (Elt F) :=
  select (cmpi .slt v (broadcastInDim S680000 ![] bcast_S_S680000 (constantI S_ 32 0#32))) (addi v (broadcastInDim S680000 ![] bcast_S_S680000 (constantI S_ 32 40000#32))) v

/-- The in-degree of every node to the power −1/2. -/
def degInv (dst : (⟨S680000, .i32⟩ : BufTy).Contents (Elt F)) : (⟨S40000, .f32⟩ : BufTy).Contents (Elt F) :=
  Host.rsqrt (Host.scatterAdd scatter_S40000_S680000x1_S680000_n_0_0_1 (broadcastInDim S40000 ![] bcast_S_S40000 (constant S_ .f32 0x00000000#32)) (broadcastInDim S680000x1 ![0] bcast_S680000_S680000x1_0 dst) (broadcastInDim S680000 ![] bcast_S_S680000 (constant S_ .f32 0x3F800000#32)))

/-- Per edge: the factor of its source times the factor of its target. -/
def normOf (src dst : (⟨S680000, .i32⟩ : BufTy).Contents (Elt F)) : (⟨S680000, .f32⟩ : BufTy).Contents (Elt F) :=
  mulf (Host.gather gather_S40000_S680000x1_S680000_n_0_n_n_0_1_1 (degInv dst) (broadcastInDim S680000x1 ![0] bcast_S680000_S680000x1_0 (wrapIdx src)))
    (Host.gather gather_S40000_S680000x1_S680000_n_0_n_n_0_1_1 (degInv dst) (broadcastInDim S680000x1 ![0] bcast_S680000_S680000x1_0 (wrapIdx dst)))

/-- Rows of a 128-wide feature matrix gathered at the sources, scaled per edge, summed into the targets. -/
def aggregate128 (xw : (⟨S40000x128, .f32⟩ : BufTy).Contents (Elt F)) (src dst : (⟨S680000, .i32⟩ : BufTy).Contents (Elt F))
    (nrm : (⟨S680000, .f32⟩ : BufTy).Contents (Elt F)) : (⟨S40000x128, .f32⟩ : BufTy).Contents (Elt F) :=
  Host.scatterAdd scatter_S40000x128_S680000x1_S680000x128_1_0_0_1 (broadcastInDim S40000x128 ![] bcast_S_S40000x128 (constant S_ .f32 0x00000000#32)) (broadcastInDim S680000x1 ![0] bcast_S680000_S680000x1_0 dst)
    (mulf (Host.gather gather_S40000x128_S680000x1_S680000x128_1_0_n_n_0_1_1128 xw (broadcastInDim S680000x1 ![0] bcast_S680000_S680000x1_0 (wrapIdx src)))
      (broadcastInDim S680000x128 ![0, 1] bcast_S680000x1_S680000x128_0_1 (broadcastInDim S680000x1 ![0] bcast_S680000_S680000x1_0 nrm)))

/-- The same for a 40-wide matrix. -/
def aggregate40 (xw : (⟨S40000x40, .f32⟩ : BufTy).Contents (Elt F)) (src dst : (⟨S680000, .i32⟩ : BufTy).Contents (Elt F))
    (nrm : (⟨S680000, .f32⟩ : BufTy).Contents (Elt F)) : (⟨S40000x40, .f32⟩ : BufTy).Contents (Elt F) :=
  Host.scatterAdd scatter_S40000x40_S680000x1_S680000x40_1_0_0_1 (broadcastInDim S40000x40 ![] bcast_S_S40000x40 (constant S_ .f32 0x00000000#32)) (broadcastInDim S680000x1 ![0] bcast_S680000_S680000x1_0 dst)
    (mulf (Host.gather gather_S40000x40_S680000x1_S680000x40_1_0_n_n_0_1_140 xw (broadcastInDim S680000x1 ![0] bcast_S680000_S680000x1_0 (wrapIdx src)))
      (broadcastInDim S680000x40 ![0, 1] bcast_S680000x1_S680000x40_0_1 (broadcastInDim S680000x1 ![0] bcast_S680000_S680000x1_0 nrm)))

/-- A bias vector viewed as one row. -/
def row128 (b : (⟨S128, .f32⟩ : BufTy).Contents (Elt F)) : (⟨S1x128, .f32⟩ : BufTy).Contents (Elt F) :=
  shapeCast _ b shapeCasts_S128_S1x128
def row40 (b : (⟨S40, .f32⟩ : BufTy).Contents (Elt F)) : (⟨S1x40, .f32⟩ : BufTy).Contents (Elt F) :=
  shapeCast _ b shapeCasts_S40_S1x40

end Cert.Gcn.Host

end
-- ==== Proof.GcnNetwork.lean ====
/-
  The whole two-layer network as ONE function of the six argument arrays over the extended reals:

    out = logSoftmax (A₄₀ (dense (biasClamp (A₁₂₈ (dense x W₁)) b₁) W₂)) b₂

  where A_w aggregates a w-wide feature matrix over the graph with self-loops: rows gathered at the edges' sources,
  scaled by deg⁻¹ᐟ²(source)·deg⁻¹ᐟ²(target), summed into the targets (the host's operations, never opened here).
-/
import proofs.«101711_j9938554323112_1_alg».proof.Proof.LibRowSteps
import proofs.«101711_j9938554323112_1_alg».proof.Proof.HostChain

noncomputable section

namespace Cert.Gcn

open Idealize.ShloMosaic Cert.KernelIdeal

variable [Cert.KernelIdeal.Facts]

/-- The network's result from the six arguments. -/
def network (x : (⟨S40000x128, .f32⟩ : BufTy).Contents (Elt Ideal)) (ei : (⟨S2x640000, .i32⟩ : BufTy).Contents (Elt Ideal))
    (w1 : (⟨S128x128, .f32⟩ : BufTy).Contents (Elt Ideal)) (b1 : (⟨S128, .f32⟩ : BufTy).Contents (Elt Ideal))
    (w2 : (⟨S128x40, .f32⟩ : BufTy).Contents (Elt Ideal)) (b2 : (⟨S40, .f32⟩ : BufTy).Contents (Elt Ideal)) :
    (⟨S40000x40, .f32⟩ : BufTy).Contents (Elt Ideal) :=
  logSoftmax (n := 40000) (c := 40)
    (Host.aggregate40
      (dense (n := 40000) (k := 128) (c := 40)
        (biasClamp (n := 40000) (c := 128)
          (Host.aggregate128 (dense (n := 40000) (k := 128) (c := 128) x w1) (Host.srcOf ei) (Host.dstOf ei)
            (Host.normOf (Host.srcOf ei) (Host.dstOf ei)))
          (Host.row128 b1))
        w2)
      (Host.srcOf ei) (Host.dstOf ei) (Host.normOf (Host.srcOf ei) (Host.dstOf ei)))
    (Host.row40 b2)

end Cert.Gcn

end
-- ==== Proof.LibAfterSplit.lean ====
/-
  A line of host operations run from given buffer contents is a fold over the line; the fold over a line is the fold
  over any tail of it started from the fold over the matching head.
-/
import Idealize.ShloMosaic.Lib.StableHlo.Run

noncomputable section

namespace Cert.AfterSplit

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => exact ih _

theorem after_take_drop (l : List (HloOp τ sig Val)) (k : ℕ) (V : Valuation τ sig Val) :
    after l V = after (l.drop k) (after (l.take k) V) := by
  rw [← after_append, List.take_append_drop]

end Cert.AfterSplit

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.LibLogSoftmaxRows.lean ====
/-
  Reusable lemmas: a bias row spread down a block, and the log-softmax of the rows of a block in a kernel's spelling.

  A kernel takes the log-softmax of every row of an [a, c] block v by: the row maxima (a lane reduction from −∞) kept as
  a column [a, 1] and spread back to [a, c]; s = v − that; exp; the row sums (a lane reduction from zero) kept as a
  column; log; spread back; s − that. Read at (p, q) over the extended reals this is the log-softmax of row p at q
  (`Cert.Gcn.logSoftmaxRow`: the maximum as the fold of max from −∞). Generic in the extents a, c.
-/
import proofs.«101711_j9938554323112_1_alg».proof.Proof.LibRowSteps
import proofs.«101711_j9938554323112_1_alg».proof.Proof.LibKeepdimsColumn
import proofs.«101711_j9938554323112_1_alg».proof.Proof.LibSlabLayout
import Idealize.ShloMosaic.Lib.Pipeline.Value
import Idealize.ShloMosaic.Lib.ValueIdx
import Idealize.ShloMosaic.PureOps.Ideal.Laws

noncomputable section

namespace Cert.LogSoftmaxRows

open Idealize.ShloMosaic Idealize.ShloMosaic.ValueIdx Cert.Gcn

/-- One row spread down the rows of an [a, b] array reads, at (p, q), the row's entry q. -/
theorem row_spread {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The log-softmax of the rows of an [a, c] array v, in the kernel's spelling: the row maxima (from −∞) kept as a
    column and spread back, subtracted; exp; the row sums kept as a column; log; spread back; subtracted. -/
theorem logSoftmax_rows {a c : ℕ} (v : FVec Ideal ⟨2, ![a, c]⟩ .f32)
    (hr : (⟨2, ![a, c]⟩ : Shape).Reduces [(1 : Fin 2)] ⟨1, ![a]⟩) (hc : (⟨1, ![a]⟩ : Shape).ShapeCasts ⟨2, ![a, 1]⟩)
    (hb : (⟨2, ![a, 1]⟩ : Shape).Broadcasts ⟨2, ![a, c]⟩) (hφ : FKind.Formats .f32)
    (hmax : (0xFF800000#32 : BitVec FTy.f32.bits) = FKind.maximumf.neutral .f32 hφ)
    (hadd : (0x00000000#32 : BitVec FTy.f32.bits) = FKind.add.neutral .f32 hφ) (p : Fin a) (q : Fin c) :
    subf (subf v (broadcastTo ⟨2, ![a, c]⟩ (shapeCast ⟨2, ![a, 1]⟩ (multiReduction .maximumf [(1 : Fin 2)] ⟨1, ![a]⟩ v 0xFF800000#32 hr hφ hmax) hc) hb))
      (broadcastTo ⟨2, ![a, c]⟩ (log (shapeCast ⟨2, ![a, 1]⟩ (multiReduction .add [(1 : Fin 2)] ⟨1, ![a]⟩
        (exp (subf v (broadcastTo ⟨2, ![a, c]⟩ (shapeCast ⟨2, ![a, 1]⟩ (multiReduction .maximumf [(1 : Fin 2)] ⟨1, ![a]⟩ v 0xFF800000#32 hr hφ hmax) hc) hb)))
        0x00000000#32 hr hφ hadd) hc)) hb) (ix2 p q)
      = logSoftmaxRow (fun j => v (ix2 p j)) q := by
  have hm : ∀ j : Fin c, broadcastTo ⟨2, ![a, c]⟩ (shapeCast ⟨2, ![a, 1]⟩ (multiReduction .maximumf [(1 : Fin 2)] ⟨1, ![a]⟩ v 0xFF800000#32 hr hφ hmax) hc) hb (ix2 p j)
      = rowMax (fun j => v (ix2 p j)) := fun j => by
    rw [Cert.KeepdimsColumn.broadcastTo_a1_ab_apply, Cert.KeepdimsColumn.shapeCast_a_a1_apply, Cert.SlabLayout.rowMax_apply]
    rfl
  rw [subf_apply, subf_apply, hm q, Cert.KeepdimsColumn.broadcastTo_a1_ab_apply]
  show (v (ix2 p q) - rowMax fun j => v (ix2 p j)) - Ideal.log (shapeCast ⟨2, ![a, 1]⟩ (multiReduction .add [(1 : Fin 2)] ⟨1, ![a]⟩
      (exp (subf v (broadcastTo ⟨2, ![a, c]⟩ (shapeCast ⟨2, ![a, 1]⟩ (multiReduction .maximumf [(1 : Fin 2)] ⟨1, ![a]⟩ v 0xFF800000#32 hr hφ hmax) hc) hb)))
      0x00000000#32 hr hφ hadd) hc (ix2 p (0 : Fin 1))) = _
  rw [Cert.KeepdimsColumn.shapeCast_a_a1_apply, Cert.SlabLayout.rowSum_apply]
  unfold logSoftmaxRow
  congr 2
  refine Finset.sum_congr rfl fun j _ => ?_
  show Ideal.exp (subf v _ (ix2 p j)) = _
  rw [subf_apply, hm j]

end Cert.LogSoftmaxRows

end
-- ==== Proof.BlockSteps.lean ====
/-
  What each kernel body computes on one block of rows, over the extended reals: the stored value, as one function of
  the loaded blocks, is the specification's step applied to the block.

    the two feature transforms : a matrix-unit product of the (bf16-truncated, which is the identity here) row block
                                 with the whole weight matrix, into zeros        = dense  (row block) (weights)
    bias and clamp             : row block + the bias row spread down the rows, maximum with a splat zero
                                                                               = biasClamp (row block) (bias row)
    bias and log-softmax       : v = row block + bias row; the row maxima kept as a column and spread back; v − max;
                                 exp; the row sums kept as a column; log; spread back; subtract
                                                                               = logSoftmax (row block) (bias row)
-/
import proofs.«101711_j9938554323112_1_alg».proof.Proof.Gen.KernelIdeal.Skeleton
import proofs.«101711_j9938554323112_1_alg».proof.Proof.LibRowSteps
import proofs.«101711_j9938554323112_1_alg».proof.Proof.LibMatmulNN
import proofs.«101711_j9938554323112_1_alg».proof.Proof.LibLogSoftmaxRows
import Idealize.ShloMosaic.Lib.Pipeline.Value
import Idealize.ShloMosaic.Lib.ValueIdx
import Idealize.ShloMosaic.PureOps.Ideal.Laws

noncomputable section

namespace Cert.Gcn.Block

open Idealize.ShloMosaic Idealize.ShloMosaic.ValueIdx Cert.KernelIdeal Cert.KernelIdeal.Gen Cert.Gcn Cert.LogSoftmaxRows

/-- The first feature transform on a block of 2000 rows. -/
theorem linear128_block (x0 : Vec Ideal S2000x128 .f32) (x1 : Vec Ideal S128x128 .f32) :
    k0_pay1 (F := Ideal) x0 x1 = dense (n := 2000) (k := 128) (c := 128) x0 x1 := by
  funext j
  obtain ⟨p, q, rfl⟩ : ∃ (p : Fin 2000) (q : Fin 128), j = ix2 p q := ⟨j 0, j 1, eq_ix2 j⟩
  unfold k0_pay1
  exact (Cert.MatmulNN.matmul_zero_apply _ rfl none _ _ p q).trans rfl

/-- The second feature transform on a block of 2000 rows. -/
theorem linear40_block (x0 : Vec Ideal S2000x128 .f32) (x1 : Vec Ideal S128x40 .f32) :
    k2_pay1 (F := Ideal) x0 x1 = dense (n := 2000) (k := 128) (c := 40) x0 x1 := by
  funext j
  obtain ⟨p, q, rfl⟩ : ∃ (p : Fin 2000) (q : Fin 40), j = ix2 p q := ⟨j 0, j 1, eq_ix2 j⟩
  unfold k2_pay1
  refine (Cert.MatmulNN.matmul_zero_apply _ rfl none _ _ p q).trans ?_
  rw [dense_apply]
  refine Finset.sum_congr rfl fun k _ => ?_
  rw [truncf_apply, truncf_apply, shapeCast_self]

/-- Bias and clamp on a block of 2000 rows. -/
theorem biasClamp_block (x0 : Vec Ideal S2000x128 .f32) (x1 : Vec Ideal S1x128 .f32) :
    k1_pay1 (F := Ideal) x0 x1 = biasClamp (n := 2000) (c := 128) x0 x1 := by
  funext j
  obtain ⟨p, q, rfl⟩ : ∃ (p : Fin 2000) (q : Fin 128), j = ix2 p q := ⟨j 0, j 1, eq_ix2 j⟩
  unfold k1_pay1
  rw [biasClamp_apply, maximumf_apply, addf_apply, shapeCast_self, row_spread, shapeCast_self]
  rfl

/-- Bias and log-softmax on a block of 2000 rows. -/
theorem logSoftmax_block (x0 : Vec Ideal S2000x40 .f32) (x1 : Vec Ideal S1x40 .f32) :
    k3_pay1 (F := Ideal) x0 x1 = logSoftmax (n := 2000) (c := 40) x0 x1 := by
  funext j
  obtain ⟨p, q, rfl⟩ : ∃ (p : Fin 2000) (q : Fin 40), j = ix2 p q := ⟨j 0, j 1, eq_ix2 j⟩
  unfold k3_pay1
  refine (logSoftmax_rows (a := 2000) (c := 40) _ _ _ _ _ _ _ p q).trans ?_
  rw [logSoftmax_apply]
  refine congrArg (fun f => logSoftmaxRow f q) (funext fun j => ?_)
  rw [addf_apply, shapeCast_self, row_spread, shapeCast_self] <;> rfl

end Cert.Gcn.Block

end
-- ==== Proof.Launch0.lean ====
/-
  The first feature transform, over the whole node array: after the launch the result array is dense x W₁.

  The launch walks the 40000 rows in 20 blocks of 2000. Point t fetches rows 2000·t … 2000·t+1999 of the first operand
  and the whole second operand, and writes back rows 2000·t … 2000·t+1999 of the result. Since the step is row-local
  (a row of the result reads that row of the first operand and the whole second operand), what point t writes back is
  block t of the step applied to the WHOLE arrays; the 20 blocks tile the result array (the block of row i is
  i / 2000), so after the launch the result array is the step of the whole arrays as the launch found them.
-/
import proofs.«101711_j9938554323112_1_alg».proof.Proof.Gen.KernelIdeal.Frame
import proofs.«101711_j9938554323112_1_alg».proof.Proof.BlockSteps
import Idealize.ShloMosaic.Lib.Pipeline.Value

set_option maxRecDepth 16384

noncomputable section

namespace Cert.Gcn.Launch0

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps, decided over the grid: the row block of the first operand moves with the result's, every
    other block index is zero, and the result's row-block index stays below 20. -/
theorem blockIndices : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every row block is some point's. -/
theorem everyRowBlock : ∀ q0 : Fin 20, ∃ t : Fin cfg0.N, win0_2.index t (0 : Fin 2) = q0.val :=
  (by decide +kernel : ∀ q0 : Fin 20, ∃ t : Fin grid0.N, win0_2.index t (0 : Fin 2) = q0.val)

/-- What point t writes back is block t of the step applied to the whole arrays. -/
theorem writtenBack (c : Dev nD) (t : Fin cfg0.N) :
    (dat0 V c).flushed 2 t = ((cfg0.win 2).blk t).view.read (Elt Ideal)
      (dense (n := 40000) (k := 128) (c := 128) (V c main_arg0) (V c main_arg2)) := by
  show (cfg0.win 2).cut (grid0.coords t) ((dat0 V c).after 2 t) = _
  rw [after0_2]
  unfold out0_2
  rw [View.canon_unit_zero zeroOffsets]
  simp only [View.ld_unit_zero (S := S2000x128) zeroOffsets, View.ld_unit_zero (S := S128x128) zeroOffsets]
  rw [Block.linear128_block]
  obtain ⟨e0, e1, e2, e3, e4, e5⟩ := blockIndices t
  funext j
  show dense (n := 2000) (k := 128) (c := 128) (iblk0 V c 0 t) (iblk0 V c 1 t) j
    = dense (n := 40000) (k := 128) (c := 128) (V c main_arg0) (V c main_arg2) (((cfg0.win 2).blk t).view.emb j)
  refine dense_transfer _ _ _ _ j _ (fun l => ?_) (fun l => ?_)
  · show V c main_arg0 (((cfg0.win 0).blk t).view.emb (ix2 (j 0) l)) = V c main_arg0 (ix2 ((((cfg0.win 2).blk t).view.emb j) 0) l)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * l.val = l.val; omega
  · show V c main_arg2 (((cfg0.win 1).blk t).view.emb (ix2 l (j 1))) = V c main_arg2 (ix2 l ((((cfg0.win 2).blk t).view.emb j) 1))
    refine congrArg (V c main_arg2) (funext fun a => Fin.ext ?_)
    match a with
    | ⟨0, _⟩ => show win0_1.index t (0 : Fin 2) * 128 + 1 * l.val = l.val; omega
    | ⟨1, _⟩ => show win0_1.index t (1 : Fin 2) * 128 + 1 * (j 1).val = win0_2.index t (1 : Fin 2) * 128 + 1 * (j 1).val; omega

/-- An index of the result array is in point t's block iff each coordinate is in the block's range on its axis. -/
theorem mem_block (t : Fin cfg0.N) (i : S40000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v27).slice (win0_2.rect t)).set ↔ _
  rw [View.set_slice_whole, Rect.mem_set_unit]
  exact Iff.rfl

/-- The blocks tile the result array: row i is in the block of point i / 2000. -/
theorem covered (i : S40000x128.Idx) :
    ∃ t : Fin cfg0.N, (cfg0.win 2).flush t = true ∧ i ∈ ((cfg0.win 2).blk t).view.set := by
  have hi0 : (i 0).val < 40000 := (i 0).isLt
  have hi1 : (i 1).val < 128 := (i 1).isLt
  obtain ⟨t, ht⟩ := everyRowBlock ⟨(i 0).val / 2000, by omega⟩
  have ht' : win0_2.index t (0 : Fin 2) = (i 0).val / 2000 := ht
  obtain ⟨e0, e1, e2, e3, e4, e5⟩ := blockIndices t
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- THE RESULT ARRAY after the launch: the step of the whole arrays as the launch found them. -/
theorem result (c : Dev nD) :
    (dat0 V c).arrAt 2 cfg0.N = dense (n := 40000) (k := 128) (c := 128) (V c main_arg0) (V c main_arg2) :=
  (dat0 V c).arrAt_eq_of_cover 2 _ (fun t _ => writtenBack V c t) covered

end Cert.Gcn.Launch0

end
-- ==== Proof.Launch1.lean ====
/-
  Bias and clamp, over the whole node array: after the launch the result array is biasClamp (aggregated features) (bias row).

  The launch walks the 40000 rows in 20 blocks of 2000. Point t fetches rows 2000·t … 2000·t+1999 of the first operand
  and the whole second operand, and writes back rows 2000·t … 2000·t+1999 of the result. Since the step is row-local
  (a row of the result reads that row of the first operand and the whole second operand), what point t writes back is
  block t of the step applied to the WHOLE arrays; the 20 blocks tile the result array (the block of row i is
  i / 2000), so after the launch the result array is the step of the whole arrays as the launch found them.
-/
import proofs.«101711_j9938554323112_1_alg».proof.Proof.Gen.KernelIdeal.Frame
import proofs.«101711_j9938554323112_1_alg».proof.Proof.BlockSteps
import Idealize.ShloMosaic.Lib.Pipeline.Value

set_option maxRecDepth 16384

noncomputable section

namespace Cert.Gcn.Launch1

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps, decided over the grid: the row block of the first operand moves with the result's, every
    other block index is zero, and the result's row-block index stays below 20. -/
theorem blockIndices : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 19 :=
  (by decide +kernel : ∀ t : Fin grid1.N, _)

/-- Every row block is some point's. -/
theorem everyRowBlock : ∀ q0 : Fin 20, ∃ t : Fin cfg1.N, win1_2.index t (0 : Fin 2) = q0.val :=
  (by decide +kernel : ∀ q0 : Fin 20, ∃ t : Fin grid1.N, win1_2.index t (0 : Fin 2) = q0.val)

/-- What point t writes back is block t of the step applied to the whole arrays. -/
theorem writtenBack (c : Dev nD) (t : Fin cfg1.N) :
    (dat1 V c).flushed 2 t = ((cfg1.win 2).blk t).view.read (Elt Ideal)
      (biasClamp (n := 40000) (c := 128) (V c main_v40) (V c main_v41)) := by
  show (cfg1.win 2).cut (grid1.coords t) ((dat1 V c).after 2 t) = _
  rw [after1_2]
  unfold out1_2
  rw [View.canon_unit_zero zeroOffsets]
  simp only [View.ld_unit_zero (S := S2000x128) zeroOffsets, View.ld_unit_zero (S := S1x128) zeroOffsets]
  rw [Block.biasClamp_block]
  obtain ⟨e0, e1, e2, e3, e4, e5⟩ := blockIndices t
  funext j
  show biasClamp (n := 2000) (c := 128) (iblk1 V c 0 t) (iblk1 V c 1 t) j
    = biasClamp (n := 40000) (c := 128) (V c main_v40) (V c main_v41) (((cfg1.win 2).blk t).view.emb j)
  refine biasClamp_transfer _ _ _ _ j _ ?_ ?_
  · show V c main_v40 (((cfg1.win 0).blk t).view.emb (ix2 (j 0) (j 1))) = V c main_v40 (ix2 ((((cfg1.win 2).blk t).view.emb j) 0) ((((cfg1.win 2).blk t).view.emb j) 1))
    refine congrArg _ (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  · show V c main_v41 (((cfg1.win 1).blk t).view.emb (ix2 (0 : Fin 1) (j 1))) = V c main_v41 (ix2 (0 : Fin 1) ((((cfg1.win 2).blk t).view.emb j) 1))
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega

/-- An index of the result array is in point t's block iff each coordinate is in the block's range on its axis. -/
theorem mem_block (t : Fin cfg1.N) (i : S40000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v42).slice (win1_2.rect t)).set ↔ _
  rw [View.set_slice_whole, Rect.mem_set_unit]
  exact Iff.rfl

/-- The blocks tile the result array: row i is in the block of point i / 2000. -/
theorem covered (i : S40000x128.Idx) :
    ∃ t : Fin cfg1.N, (cfg1.win 2).flush t = true ∧ i ∈ ((cfg1.win 2).blk t).view.set := by
  have hi0 : (i 0).val < 40000 := (i 0).isLt
  have hi1 : (i 1).val < 128 := (i 1).isLt
  obtain ⟨t, ht⟩ := everyRowBlock ⟨(i 0).val / 2000, by omega⟩
  have ht' : win1_2.index t (0 : Fin 2) = (i 0).val / 2000 := ht
  obtain ⟨e0, e1, e2, e3, e4, e5⟩ := blockIndices t
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- THE RESULT ARRAY after the launch: the step of the whole arrays as the launch found them. -/
theorem result (c : Dev nD) :
    (dat1 V c).arrAt 2 cfg1.N = biasClamp (n := 40000) (c := 128) (V c main_v40) (V c main_v41) :=
  (dat1 V c).arrAt_eq_of_cover 2 _ (fun t _ => writtenBack V c t) covered

end Cert.Gcn.Launch1

end
-- ==== Proof.Launch2.lean ====
/-
  The second feature transform, over the whole node array: after the launch the result array is dense h W₂.

  The launch walks the 40000 rows in 20 blocks of 2000. Point t fetches rows 2000·t … 2000·t+1999 of the first operand
  and the whole second operand, and writes back rows 2000·t … 2000·t+1999 of the result. Since the step is row-local
  (a row of the result reads that row of the first operand and the whole second operand), what point t writes back is
  block t of the step applied to the WHOLE arrays; the 20 blocks tile the result array (the block of row i is
  i / 2000), so after the launch the result array is the step of the whole arrays as the launch found them.
-/
import proofs.«101711_j9938554323112_1_alg».proof.Proof.Gen.KernelIdeal.Frame
import proofs.«101711_j9938554323112_1_alg».proof.Proof.BlockSteps
import Idealize.ShloMosaic.Lib.Pipeline.Value

set_option maxRecDepth 16384

noncomputable section

namespace Cert.Gcn.Launch2

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps, decided over the grid: the row block of the first operand moves with the result's, every
    other block index is zero, and the result's row-block index stays below 20. -/
theorem blockIndices : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 19 :=
  (by decide +kernel : ∀ t : Fin grid2.N, _)

/-- Every row block is some point's. -/
theorem everyRowBlock : ∀ q0 : Fin 20, ∃ t : Fin cfg2.N, win2_2.index t (0 : Fin 2) = q0.val :=
  (by decide +kernel : ∀ q0 : Fin 20, ∃ t : Fin grid2.N, win2_2.index t (0 : Fin 2) = q0.val)

/-- What point t writes back is block t of the step applied to the whole arrays. -/
theorem writtenBack (c : Dev nD) (t : Fin cfg2.N) :
    (dat2 V c).flushed 2 t = ((cfg2.win 2).blk t).view.read (Elt Ideal)
      (dense (n := 40000) (k := 128) (c := 40) (V c main_v42) (V c main_arg4)) := by
  show (cfg2.win 2).cut (grid2.coords t) ((dat2 V c).after 2 t) = _
  rw [after2_2]
  unfold out2_2
  rw [View.canon_unit_zero zeroOffsets]
  simp only [View.ld_unit_zero (S := S2000x128) zeroOffsets, View.ld_unit_zero (S := S128x40) zeroOffsets]
  rw [Block.linear40_block]
  obtain ⟨e0, e1, e2, e3, e4, e5⟩ := blockIndices t
  funext j
  show dense (n := 2000) (k := 128) (c := 40) (iblk2 V c 0 t) (iblk2 V c 1 t) j
    = dense (n := 40000) (k := 128) (c := 40) (V c main_v42) (V c main_arg4) (((cfg2.win 2).blk t).view.emb j)
  refine dense_transfer _ _ _ _ j _ (fun l => ?_) (fun l => ?_)
  · show V c main_v42 (((cfg2.win 0).blk t).view.emb (ix2 (j 0) l)) = V c main_v42 (ix2 ((((cfg2.win 2).blk t).view.emb j) 0) l)
    refine congrArg (V c main_v42) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * l.val = l.val; omega
  · show V c main_arg4 (((cfg2.win 1).blk t).view.emb (ix2 l (j 1))) = V c main_arg4 (ix2 l ((((cfg2.win 2).blk t).view.emb j) 1))
    refine congrArg (V c main_arg4) (funext fun a => Fin.ext ?_)
    match a with
    | ⟨0, _⟩ => show win2_1.index t (0 : Fin 2) * 128 + 1 * l.val = l.val; omega
    | ⟨1, _⟩ => show win2_1.index t (1 : Fin 2) * 40 + 1 * (j 1).val = win2_2.index t (1 : Fin 2) * 40 + 1 * (j 1).val; omega

/-- An index of the result array is in point t's block iff each coordinate is in the block's range on its axis. -/
theorem mem_block (t : Fin cfg2.N) (i : S40000x40.Idx) :
    i ∈ ((cfg2.win 2).blk t).view.set ↔ ∀ a : Fin 2, win2_2.index t a * S2000x40.size a ≤ (i a).val ∧ (i a).val < win2_2.index t a * S2000x40.size a + S2000x40.size a := by
  show i ∈ ((View.whole main_v43).slice (win2_2.rect t)).set ↔ _
  rw [View.set_slice_whole, Rect.mem_set_unit]
  exact Iff.rfl

/-- The blocks tile the result array: row i is in the block of point i / 2000. -/
theorem covered (i : S40000x40.Idx) :
    ∃ t : Fin cfg2.N, (cfg2.win 2).flush t = true ∧ i ∈ ((cfg2.win 2).blk t).view.set := by
  have hi0 : (i 0).val < 40000 := (i 0).isLt
  have hi1 : (i 1).val < 40 := (i 1).isLt
  obtain ⟨t, ht⟩ := everyRowBlock ⟨(i 0).val / 2000, by omega⟩
  have ht' : win2_2.index t (0 : Fin 2) = (i 0).val / 2000 := ht
  obtain ⟨e0, e1, e2, e3, e4, e5⟩ := blockIndices t
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 40 ≤ (i 1).val ∧ (i 1).val < win2_2.index t (1 : Fin 2) * 40 + 40; omega

/-- THE RESULT ARRAY after the launch: the step of the whole arrays as the launch found them. -/
theorem result (c : Dev nD) :
    (dat2 V c).arrAt 2 cfg2.N = dense (n := 40000) (k := 128) (c := 40) (V c main_v42) (V c main_arg4) :=
  (dat2 V c).arrAt_eq_of_cover 2 _ (fun t _ => writtenBack V c t) covered

end Cert.Gcn.Launch2

end
-- ==== Proof.Launch3.lean ====
/-
  Bias and log-softmax, over the whole node array: after the launch the result array is logSoftmax (aggregated scores) (bias row).

  The launch walks the 40000 rows in 20 blocks of 2000. Point t fetches rows 2000·t … 2000·t+1999 of the first operand
  and the whole second operand, and writes back rows 2000·t … 2000·t+1999 of the result. Since the step is row-local
  (a row of the result reads that row of the first operand and the whole second operand), what point t writes back is
  block t of the step applied to the WHOLE arrays; the 20 blocks tile the result array (the block of row i is
  i / 2000), so after the launch the result array is the step of the whole arrays as the launch found them.
-/
import proofs.«101711_j9938554323112_1_alg».proof.Proof.Gen.KernelIdeal.Frame
import proofs.«101711_j9938554323112_1_alg».proof.Proof.BlockSteps
import Idealize.ShloMosaic.Lib.Pipeline.Value

set_option maxRecDepth 16384

noncomputable section

namespace Cert.Gcn.Launch3

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps, decided over the grid: the row block of the first operand moves with the result's, every
    other block index is zero, and the result's row-block index stays below 20. -/
theorem blockIndices : ∀ t : Fin cfg3.N, win3_0.index t (0 : Fin 2) = win3_2.index t (0 : Fin 2)
    ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 19 :=
  (by decide +kernel : ∀ t : Fin grid3.N, _)

/-- Every row block is some point's. -/
theorem everyRowBlock : ∀ q0 : Fin 20, ∃ t : Fin cfg3.N, win3_2.index t (0 : Fin 2) = q0.val :=
  (by decide +kernel : ∀ q0 : Fin 20, ∃ t : Fin grid3.N, win3_2.index t (0 : Fin 2) = q0.val)

/-- What point t writes back is block t of the step applied to the whole arrays. -/
theorem writtenBack (c : Dev nD) (t : Fin cfg3.N) :
    (dat3 V c).flushed 2 t = ((cfg3.win 2).blk t).view.read (Elt Ideal)
      (logSoftmax (n := 40000) (c := 40) (V c main_v56) (V c main_v57)) := by
  show (cfg3.win 2).cut (grid3.coords t) ((dat3 V c).after 2 t) = _
  rw [after3_2]
  unfold out3_2
  rw [View.canon_unit_zero zeroOffsets]
  simp only [View.ld_unit_zero (S := S2000x40) zeroOffsets, View.ld_unit_zero (S := S1x40) zeroOffsets]
  rw [Block.logSoftmax_block]
  obtain ⟨e0, e1, e2, e3, e4, e5⟩ := blockIndices t
  funext j
  show logSoftmax (n := 2000) (c := 40) (iblk3 V c 0 t) (iblk3 V c 1 t) j
    = logSoftmax (n := 40000) (c := 40) (V c main_v56) (V c main_v57) (((cfg3.win 2).blk t).view.emb j)
  refine logSoftmax_transfer _ _ _ _ j _ (fun l => ?_) (fun l => ?_) ?_
  · show V c main_v56 (((cfg3.win 0).blk t).view.emb (ix2 (j 0) l)) = V c main_v56 (ix2 ((((cfg3.win 2).blk t).view.emb j) 0) l)
    refine congrArg _ (funext fun a => Fin.ext ?_)
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 40 + 1 * l.val = l.val; omega
  · show V c main_v57 (((cfg3.win 1).blk t).view.emb (ix2 (0 : Fin 1) l)) = V c main_v57 (ix2 (0 : Fin 1) l)
    refine congrArg _ (funext fun a => Fin.ext ?_)
    match a with
    | ⟨0, _⟩ => show win3_1.index t (0 : Fin 2) * 1 + 1 * 0 = 0; omega
    | ⟨1, _⟩ => show win3_1.index t (1 : Fin 2) * 40 + 1 * l.val = l.val; omega
  · apply Fin.ext
    show (j 1).val = win3_2.index t (1 : Fin 2) * 40 + 1 * (j 1).val
    omega

/-- An index of the result array is in point t's block iff each coordinate is in the block's range on its axis. -/
theorem mem_block (t : Fin cfg3.N) (i : S40000x40.Idx) :
    i ∈ ((cfg3.win 2).blk t).view.set ↔ ∀ a : Fin 2, win3_2.index t a * S2000x40.size a ≤ (i a).val ∧ (i a).val < win3_2.index t a * S2000x40.size a + S2000x40.size a := by
  show i ∈ ((View.whole main_v58).slice (win3_2.rect t)).set ↔ _
  rw [View.set_slice_whole, Rect.mem_set_unit]
  exact Iff.rfl

/-- The blocks tile the result array: row i is in the block of point i / 2000. -/
theorem covered (i : S40000x40.Idx) :
    ∃ t : Fin cfg3.N, (cfg3.win 2).flush t = true ∧ i ∈ ((cfg3.win 2).blk t).view.set := by
  have hi0 : (i 0).val < 40000 := (i 0).isLt
  have hi1 : (i 1).val < 40 := (i 1).isLt
  obtain ⟨t, ht⟩ := everyRowBlock ⟨(i 0).val / 2000, by omega⟩
  have ht' : win3_2.index t (0 : Fin 2) = (i 0).val / 2000 := ht
  obtain ⟨e0, e1, e2, e3, e4, e5⟩ := blockIndices t
  refine ⟨t, flush3_2 t, ?_⟩
  rw [mem_block]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 40 ≤ (i 1).val ∧ (i 1).val < win3_2.index t (1 : Fin 2) * 40 + 40; omega

/-- THE RESULT ARRAY after the launch: the step of the whole arrays as the launch found them. -/
theorem result (c : Dev nD) :
    (dat3 V c).arrAt 2 cfg3.N = logSoftmax (n := 40000) (c := 40) (V c main_v56) (V c main_v57) :=
  (dat3 V c).arrAt_eq_of_cover 2 _ (fun t _ => writtenBack V c t) covered

end Cert.Gcn.Launch3

end
-- ==== Proof.KernelValue.lean ====
/-
  What the idealized kernel's run leaves in its result array, as the network function of the six arguments.

  The run passes seven boundaries. From the launch memory: the first host stretch makes the edge lists (sources, targets)
  and the per-edge scaling; the first launch makes dense x W₁; the second host stretch aggregates it over the graph and
  views b₁ as a row; the second launch adds the bias and clamps; the third launch makes dense h W₂; the third host
  stretch aggregates again and views b₂ as a row; the fourth launch adds the bias and takes the log-softmax of every
  row. At every boundary each buffer a later step reads is followed: written here (then it is the step's function of
  what the step read) or not written here (then it is what it was). No step writes an argument array.
-/
import proofs.«101711_j9938554323112_1_alg».proof.Proof.Gen.KernelIdeal.Frame
import proofs.«101711_j9938554323112_1_alg».proof.Proof.GcnNetwork
import proofs.«101711_j9938554323112_1_alg».proof.Proof.LibAfterSplit
import proofs.«101711_j9938554323112_1_alg».proof.Proof.Launch0
import proofs.«101711_j9938554323112_1_alg».proof.Proof.Launch1
import proofs.«101711_j9938554323112_1_alg».proof.Proof.Launch2
import proofs.«101711_j9938554323112_1_alg».proof.Proof.Launch3
import Idealize.ShloMosaic.Lib.StableHlo.Run

set_option maxRecDepth 16384

noncomputable section

namespace Cert.Gcn.KernelValue

open Cert.KernelIdeal Cert.KernelIdeal.Gen Idealize.ShloMosaic Idealize.ShloMosaic.TcCoe Idealize.SL.Sem
open Idealize.ShloMosaic.StableHlo Cert.Gcn

/-! ## The host stretches, from any buffer contents -/

section Stretches

variable {F : FTy → Type} [FloatOps F] (V : Valuation τ sig (Elt F))

/-- The first seven host operations make the two edge lists. -/
theorem sources : after ((hostOps0 (F := F)).take 7) V (Proc.devRef .tc main_v3) = Host.srcOf (V (Proc.devRef .tc main_arg1)) := by
  simp only [hostOps0, List.take]
  after_results
  rfl
theorem targets : after ((hostOps0 (F := F)).take 7) V (Proc.devRef .tc main_v6) = Host.dstOf (V (Proc.devRef .tc main_arg1)) := by
  simp only [hostOps0, List.take]
  after_results
  rfl
theorem head_main_arg0 : after ((hostOps0 (F := F)).take 7) V (Proc.devRef .tc main_arg0) = V (Proc.devRef .tc main_arg0) := by
  simp only [hostOps0, List.take]
  after_results_simp
theorem head_main_arg2 : after ((hostOps0 (F := F)).take 7) V (Proc.devRef .tc main_arg2) = V (Proc.devRef .tc main_arg2) := by
  simp only [hostOps0, List.take]
  after_results_simp
theorem head_main_arg3 : after ((hostOps0 (F := F)).take 7) V (Proc.devRef .tc main_arg3) = V (Proc.devRef .tc main_arg3) := by
  simp only [hostOps0, List.take]
  after_results_simp
theorem head_main_arg4 : after ((hostOps0 (F := F)).take 7) V (Proc.devRef .tc main_arg4) = V (Proc.devRef .tc main_arg4) := by
  simp only [hostOps0, List.take]
  after_results_simp
theorem head_main_arg5 : after ((hostOps0 (F := F)).take 7) V (Proc.devRef .tc main_arg5) = V (Proc.devRef .tc main_arg5) := by
  simp only [hostOps0, List.take]
  after_results_simp

/-- The rest of the first stretch makes the per-edge scaling from the two edge lists. -/
theorem scaling : after ((hostOps0 (F := F)).drop 7) V (Proc.devRef .tc main_v26)
    = Host.normOf (V (Proc.devRef .tc main_v3)) (V (Proc.devRef .tc main_v6)) := by
  simp only [hostOps0, List.drop]
  after_results_simp
  rfl
theorem tail_main_v3 : after ((hostOps0 (F := F)).drop 7) V (Proc.devRef .tc main_v3) = V (Proc.devRef .tc main_v3) := by
  simp only [hostOps0, List.drop]
  after_results_simp
theorem tail_main_v6 : after ((hostOps0 (F := F)).drop 7) V (Proc.devRef .tc main_v6) = V (Proc.devRef .tc main_v6) := by
  simp only [hostOps0, List.drop]
  after_results_simp
theorem tail_main_arg0 : after ((hostOps0 (F := F)).drop 7) V (Proc.devRef .tc main_arg0) = V (Proc.devRef .tc main_arg0) := by
  simp only [hostOps0, List.drop]
  after_results_simp
theorem tail_main_arg2 : after ((hostOps0 (F := F)).drop 7) V (Proc.devRef .tc main_arg2) = V (Proc.devRef .tc main_arg2) := by
  simp only [hostOps0, List.drop]
  after_results_simp
theorem tail_main_arg3 : after ((hostOps0 (F := F)).drop 7) V (Proc.devRef .tc main_arg3) = V (Proc.devRef .tc main_arg3) := by
  simp only [hostOps0, List.drop]
  after_results_simp
theorem tail_main_arg4 : after ((hostOps0 (F := F)).drop 7) V (Proc.devRef .tc main_arg4) = V (Proc.devRef .tc main_arg4) := by
  simp only [hostOps0, List.drop]
  after_results_simp
theorem tail_main_arg5 : after ((hostOps0 (F := F)).drop 7) V (Proc.devRef .tc main_arg5) = V (Proc.devRef .tc main_arg5) := by
  simp only [hostOps0, List.drop]
  after_results_simp

/-- The second stretch aggregates the 128-wide features over the graph and views the first bias as a row. -/
theorem aggregated128 : after (hostOps1 (F := F)) V (Proc.devRef .tc main_v40)
    = Host.aggregate128 (V (Proc.devRef .tc main_v27)) (V (Proc.devRef .tc main_v3)) (V (Proc.devRef .tc main_v6)) (V (Proc.devRef .tc main_v26)) := by
  simp only [hostOps1]
  after_results_simp
  rfl
theorem biasRow128 : after (hostOps1 (F := F)) V (Proc.devRef .tc main_v41) = Host.row128 (V (Proc.devRef .tc main_arg3)) := by
  simp only [hostOps1]
  after_results_simp
  rfl
theorem mid_main_v3 : after (hostOps1 (F := F)) V (Proc.devRef .tc main_v3) = V (Proc.devRef .tc main_v3) := by
  simp only [hostOps1]
  after_results_simp
theorem mid_main_v6 : after (hostOps1 (F := F)) V (Proc.devRef .tc main_v6) = V (Proc.devRef .tc main_v6) := by
  simp only [hostOps1]
  after_results_simp
theorem mid_main_v26 : after (hostOps1 (F := F)) V (Proc.devRef .tc main_v26) = V (Proc.devRef .tc main_v26) := by
  simp only [hostOps1]
  after_results_simp
theorem mid_main_arg4 : after (hostOps1 (F := F)) V (Proc.devRef .tc main_arg4) = V (Proc.devRef .tc main_arg4) := by
  simp only [hostOps1]
  after_results_simp
theorem mid_main_arg5 : after (hostOps1 (F := F)) V (Proc.devRef .tc main_arg5) = V (Proc.devRef .tc main_arg5) := by
  simp only [hostOps1]
  after_results_simp

/-- The third stretch aggregates the 40-wide scores over the graph and views the second bias as a row. -/
theorem aggregated40 : after (hostOps3 (F := F)) V (Proc.devRef .tc main_v56)
    = Host.aggregate40 (V (Proc.devRef .tc main_v43)) (V (Proc.devRef .tc main_v3)) (V (Proc.devRef .tc main_v6)) (V (Proc.devRef .tc main_v26)) := by
  simp only [hostOps3]
  after_results_simp
  rfl
theorem biasRow40 : after (hostOps3 (F := F)) V (Proc.devRef .tc main_v57) = Host.row40 (V (Proc.devRef .tc main_arg5)) := by
  simp only [hostOps3]
  after_results_simp
  rfl

end Stretches

/-! ## The boundaries of the run, buffer by buffer -/

variable (m : (ℓ : Loc nD τ sig) → Buf (Elt Ideal) ℓ) (ρ : Dev nD → PrngReg) (c : Dev nD)

/-- The edge lists and the scaling, as functions of the edge argument. -/
abbrev S : (⟨S680000, .i32⟩ : BufTy).Contents (Elt Ideal) := Host.srcOf (m ((c : Thread nD τ).loc main_arg1))
abbrev D : (⟨S680000, .i32⟩ : BufTy).Contents (Elt Ideal) := Host.dstOf (m ((c : Thread nD τ).loc main_arg1))
abbrev Nm : (⟨S680000, .f32⟩ : BufTy).Contents (Elt Ideal) := Host.normOf (S m c) (D m c)

/-- The first stretch is its first seven operations, then the rest. -/
theorem W1_split (b : DevRef τ sig) :
    W1 m ρ c b = after ((hostOps0 (F := Ideal)).drop 7) (after ((hostOps0 (F := Ideal)).take 7) (W0 m ρ c)) b :=
  congrFun (Cert.AfterSplit.after_take_drop (hostOps0 (F := Ideal)) 7 (W0 m ρ c)) b

theorem W1_v3 : W1 m ρ c (Proc.devRef .tc main_v3) = S m c :=
  (W1_split m ρ c _).trans ((tail_main_v3 _).trans (sources _))
theorem W1_v6 : W1 m ρ c (Proc.devRef .tc main_v6) = D m c :=
  (W1_split m ρ c _).trans ((tail_main_v6 _).trans (targets _))
theorem W1_v26 : W1 m ρ c (Proc.devRef .tc main_v26) = Nm m c :=
  (W1_split m ρ c _).trans ((scaling _).trans (by rw [sources, targets]))
theorem W1_main_arg0 : W1 m ρ c (Proc.devRef .tc main_arg0) = m ((c : Thread nD τ).loc main_arg0) :=
  (W1_split m ρ c _).trans ((tail_main_arg0 _).trans (head_main_arg0 _))
theorem W1_main_arg2 : W1 m ρ c (Proc.devRef .tc main_arg2) = m ((c : Thread nD τ).loc main_arg2) :=
  (W1_split m ρ c _).trans ((tail_main_arg2 _).trans (head_main_arg2 _))
theorem W1_main_arg3 : W1 m ρ c (Proc.devRef .tc main_arg3) = m ((c : Thread nD τ).loc main_arg3) :=
  (W1_split m ρ c _).trans ((tail_main_arg3 _).trans (head_main_arg3 _))
theorem W1_main_arg4 : W1 m ρ c (Proc.devRef .tc main_arg4) = m ((c : Thread nD τ).loc main_arg4) :=
  (W1_split m ρ c _).trans ((tail_main_arg4 _).trans (head_main_arg4 _))
theorem W1_main_arg5 : W1 m ρ c (Proc.devRef .tc main_arg5) = m ((c : Thread nD τ).loc main_arg5) :=
  (W1_split m ρ c _).trans ((tail_main_arg5 _).trans (head_main_arg5 _))

/-- After the first launch: its result is the first feature transform of the arguments; nothing else moved. -/
theorem W2_v27 : W2 m ρ c (Proc.devRef .tc main_v27)
    = dense (n := 40000) (k := 128) (c := 128) (m ((c : Thread nD τ).loc main_arg0)) (m ((c : Thread nD τ).loc main_arg2)) :=
  (W2_arr m ρ c 2).trans ((Launch0.result (V1 m ρ) c).trans (by
    show dense (n := 40000) (k := 128) (c := 128) (W1 m ρ c (Proc.devRef .tc main_arg0)) (W1 m ρ c (Proc.devRef .tc main_arg2)) = _
    rw [W1_main_arg0, W1_main_arg2]))
theorem W2_v3 : W2 m ρ c (Proc.devRef .tc main_v3) = S m c :=
  (W2_of_ne m ρ c main_v3 (by decide)).trans (W1_v3 m ρ c)
theorem W2_v6 : W2 m ρ c (Proc.devRef .tc main_v6) = D m c :=
  (W2_of_ne m ρ c main_v6 (by decide)).trans (W1_v6 m ρ c)
theorem W2_v26 : W2 m ρ c (Proc.devRef .tc main_v26) = Nm m c :=
  (W2_of_ne m ρ c main_v26 (by decide)).trans (W1_v26 m ρ c)
theorem W2_arg3 : W2 m ρ c (Proc.devRef .tc main_arg3) = m ((c : Thread nD τ).loc main_arg3) :=
  (W2_of_ne m ρ c main_arg3 (by decide)).trans (W1_main_arg3 m ρ c)
theorem W2_arg4 : W2 m ρ c (Proc.devRef .tc main_arg4) = m ((c : Thread nD τ).loc main_arg4) :=
  (W2_of_ne m ρ c main_arg4 (by decide)).trans (W1_main_arg4 m ρ c)
theorem W2_arg5 : W2 m ρ c (Proc.devRef .tc main_arg5) = m ((c : Thread nD τ).loc main_arg5) :=
  (W2_of_ne m ρ c main_arg5 (by decide)).trans (W1_main_arg5 m ρ c)

/-- After the second stretch. -/
theorem W3_v40 : W3 m ρ c (Proc.devRef .tc main_v40)
    = Host.aggregate128 (dense (n := 40000) (k := 128) (c := 128) (m ((c : Thread nD τ).loc main_arg0)) (m ((c : Thread nD τ).loc main_arg2))) (S m c) (D m c) (Nm m c) :=
  (aggregated128 (W2 m ρ c)).trans (by rw [W2_v27, W2_v3, W2_v6, W2_v26])
theorem W3_v41 : W3 m ρ c (Proc.devRef .tc main_v41) = Host.row128 (m ((c : Thread nD τ).loc main_arg3)) :=
  (biasRow128 (W2 m ρ c)).trans (by rw [W2_arg3])
theorem W3_v3 : W3 m ρ c (Proc.devRef .tc main_v3) = S m c :=
  (mid_main_v3 (W2 m ρ c)).trans (W2_v3 m ρ c)
theorem W3_v6 : W3 m ρ c (Proc.devRef .tc main_v6) = D m c :=
  (mid_main_v6 (W2 m ρ c)).trans (W2_v6 m ρ c)
theorem W3_v26 : W3 m ρ c (Proc.devRef .tc main_v26) = Nm m c :=
  (mid_main_v26 (W2 m ρ c)).trans (W2_v26 m ρ c)
theorem W3_arg4 : W3 m ρ c (Proc.devRef .tc main_arg4) = m ((c : Thread nD τ).loc main_arg4) :=
  (mid_main_arg4 (W2 m ρ c)).trans (W2_arg4 m ρ c)
theorem W3_arg5 : W3 m ρ c (Proc.devRef .tc main_arg5) = m ((c : Thread nD τ).loc main_arg5) :=
  (mid_main_arg5 (W2 m ρ c)).trans (W2_arg5 m ρ c)

/-- The hidden features: after the second launch. -/
abbrev hidden : Mat 40000 128 :=
  biasClamp (n := 40000) (c := 128)
    (Host.aggregate128 (dense (n := 40000) (k := 128) (c := 128) (m ((c : Thread nD τ).loc main_arg0)) (m ((c : Thread nD τ).loc main_arg2))) (S m c) (D m c) (Nm m c))
    (Host.row128 (m ((c : Thread nD τ).loc main_arg3)))

theorem W4_v42 : W4 m ρ c (Proc.devRef .tc main_v42) = hidden m c :=
  (W4_arr m ρ c 2).trans ((Launch1.result (V3 m ρ) c).trans (by
    show biasClamp (n := 40000) (c := 128) (W3 m ρ c (Proc.devRef .tc main_v40)) (W3 m ρ c (Proc.devRef .tc main_v41)) = _
    rw [W3_v40, W3_v41]))
theorem W4_v3 : W4 m ρ c (Proc.devRef .tc main_v3) = S m c :=
  (W4_of_ne m ρ c main_v3 (by decide)).trans (W3_v3 m ρ c)
theorem W4_v6 : W4 m ρ c (Proc.devRef .tc main_v6) = D m c :=
  (W4_of_ne m ρ c main_v6 (by decide)).trans (W3_v6 m ρ c)
theorem W4_v26 : W4 m ρ c (Proc.devRef .tc main_v26) = Nm m c :=
  (W4_of_ne m ρ c main_v26 (by decide)).trans (W3_v26 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)

/-- After the third launch: the second feature transform of the hidden features. -/
theorem W5_v43 : W5 m ρ c (Proc.devRef .tc main_v43)
    = dense (n := 40000) (k := 128) (c := 40) (hidden m c) (m ((c : Thread nD τ).loc main_arg4)) :=
  (W5_arr m ρ c 2).trans ((Launch2.result (V4 m ρ) c).trans (by
    show dense (n := 40000) (k := 128) (c := 40) (W4 m ρ c (Proc.devRef .tc main_v42)) (W4 m ρ c (Proc.devRef .tc main_arg4)) = _
    rw [W4_v42, W4_arg4]))
theorem W5_v3 : W5 m ρ c (Proc.devRef .tc main_v3) = S m c :=
  (W5_of_ne m ρ c main_v3 (by decide)).trans (W4_v3 m ρ c)
theorem W5_v6 : W5 m ρ c (Proc.devRef .tc main_v6) = D m c :=
  (W5_of_ne m ρ c main_v6 (by decide)).trans (W4_v6 m ρ c)
theorem W5_v26 : W5 m ρ c (Proc.devRef .tc main_v26) = Nm m c :=
  (W5_of_ne m ρ c main_v26 (by decide)).trans (W4_v26 m ρ c)
theorem W5_arg5 : W5 m ρ c (Proc.devRef .tc main_arg5) = m ((c : Thread nD τ).loc main_arg5) :=
  (W5_of_ne m ρ c main_arg5 (by decide)).trans (W4_arg5 m ρ c)

/-- After the third stretch. -/
theorem W6_v56 : W6 m ρ c (Proc.devRef .tc main_v56)
    = Host.aggregate40 (dense (n := 40000) (k := 128) (c := 40) (hidden m c) (m ((c : Thread nD τ).loc main_arg4))) (S m c) (D m c) (Nm m c) :=
  (aggregated40 (W5 m ρ c)).trans (by rw [W5_v43, W5_v3, W5_v6, W5_v26])
theorem W6_v57 : W6 m ρ c (Proc.devRef .tc main_v57) = Host.row40 (m ((c : Thread nD τ).loc main_arg5)) :=
  (biasRow40 (W5 m ρ c)).trans (by rw [W5_arg5])

/-- THE RESULT: after the fourth launch the result array is the network of the six arguments. -/
theorem result : W7 m ρ c (Proc.devRef .tc main_v58)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (W7_arr m ρ c 2).trans ((Launch3.result (V6 m ρ) c).trans (by
    show logSoftmax (n := 40000) (c := 40) (W6 m ρ c (Proc.devRef .tc main_v56)) (W6 m ρ c (Proc.devRef .tc main_v57)) = _
    rw [W6_v56, W6_v57]
    rfl))

end Cert.Gcn.KernelValue

end
-- ==== Proof.LibDotNN.lean ====
/-
  A reusable lemma: a host matrix product read at an entry.

  A `dot_general` of an [M, K] operand by a [K, N] operand — contracting axis 1 of the left with axis 0 of the right, no
  batch axes — read over the extended reals at the output entry (p, q) is the inner product of row p of the left operand
  with column q of the right one:  (L · R)[p, q] = Σ_{k < K} L[p, k] · R[k, q].
  Generic in the extents M, K, N and in the operands' float formats; the dimension record may be any one that equals the
  plain M×K by K×N record (a printed program's own record does, by unfolding).
-/
import proofs.«101711_j9938554323112_1_alg».proof.Proof.LibMatmulNN
import Idealize.ShloMosaic.PureOps.Ideal.Laws
import Idealize.ShloMosaic.Lib.ValueIdx

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    Host.dotGeneral D prec lhs rhs (ix2 p q) = ∑ k : Fin K, lhs (ix2 p k) * rhs (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [MatmulNN.lhsIdx_plain, MatmulNN.rhsIdx_plain]

end Cert.DotNN

end
-- ==== Proof.LibBroadcastRows.lean ====
/-
  Reusable lemmas: how a host program repeats a vector down the rows of a matrix, read at an entry.

  jnp broadcasts a vector [b] against a matrix [M, b] in two steps: the vector viewed as one row, [b] -> [1, b]
  (`broadcast_in_dim` with dims [1]), and that row repeated down the M rows, [1, b] -> [M, b] (dims [0, 1]).
  At (p, c) the result is the vector's entry c, whatever the row p. Generic in M, b and in the element type.
-/
import Idealize.ShloMosaic.Lib.Pipeline.Value
import Idealize.ShloMosaic.Lib.ValueIdx

noncomputable section

namespace Cert.BroadcastRows

open Idealize.ShloMosaic Idealize.ShloMosaic.ValueIdx

variable {α : Type} {M b : ℕ}

/-- One row repeated down M rows reads, at (p, c), the row's entry c. -/
theorem row_apply (v : (⟨2, ![1, b]⟩ : Shape).Idx → α)
    (h : (⟨2, ![1, b]⟩ : Shape).BroadcastsInDim ⟨2, ![M, b]⟩ ![0, 1]) (p : Fin M) (c : Fin b) :
    broadcastInDim ⟨2, ![M, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector viewed as one row reads, at (u, c), the vector's entry c. -/
theorem unit_apply (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Cert.BroadcastRows

end
-- ==== Proof.LibHostBroadcasts.lean ====
/-
  Reusable lemmas: how a host program spreads a scalar, a vector or a column over a larger array, read at an entry.

  jnp lowers broadcasting to `broadcast_in_dim` with an explicit map from the operand's axes to the result's:
    a scalar [] to any shape (no axes mapped):      every entry is the scalar;
    a vector [T] to a column [T, 1] (dims [0]):     entry (e, u) is the vector's entry e;
    a column [T, 1] to a matrix [T, C] (dims [0,1]): entry (e, c) is the column's entry (e, 0).
  Generic in the extents and in the element type.
-/
import Idealize.ShloMosaic.Lib.Pipeline.Value
import Idealize.ShloMosaic.Lib.ValueIdx

noncomputable section

namespace Cert.HostBroadcasts

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector viewed as a column reads, at (e, u), the vector's entry e. -/
theorem col_apply {T : ℕ} (v : (⟨1, ![T]⟩ : Shape).Idx → α)
    (h : (⟨1, ![T]⟩ : Shape).BroadcastsInDim ⟨2, ![T, 1]⟩ ![0]) (e : Fin T) (u : Fin 1) :
    broadcastInDim ⟨2, ![T, 1]⟩ ![0] h v (ix2 e u) = v (ix1 e) := by
  refine broadcastInDim_apply ![0] h v (ix2 e u) (ix1 e) fun ax => ?_
  match ax with
  | ⟨0, _⟩ =>
    show e.val = if T = 1 then 0 else e.val
    split
    · have := e.isLt; omega
    · rfl

/-- A column repeated along the rows' entries reads, at (e, c), the column's entry (e, 0). -/
theorem col_rows_apply {T C : ℕ} (v : (⟨2, ![T, 1]⟩ : Shape).Idx → α)
    (h : (⟨2, ![T, 1]⟩ : Shape).BroadcastsInDim ⟨2, ![T, C]⟩ ![0, 1]) (e : Fin T) (c : Fin C) :
    broadcastInDim ⟨2, ![T, C]⟩ ![0, 1] h v (ix2 e c) = v (ix2 e (0 : Fin 1)) := by
  refine broadcastInDim_apply ![0, 1] h v (ix2 e c) (ix2 e (0 : Fin 1)) fun ax => ?_
  match ax with
  | ⟨0, _⟩ =>
    show e.val = if T = 1 then 0 else e.val
    split
    · have := e.isLt; omega
    · rfl
  | ⟨1, _⟩ => rfl

end Cert.HostBroadcasts

end
-- ==== Proof.LibRowOfVector.lean ====
/-
  Reusable lemmas: a vector viewed as a one-row matrix and back, read at an entry.

  A shape cast of a length-b vector to a [1, b] matrix keeps the row-major order, so entry (0, q) of the matrix is
  entry q of the vector; the cast of a [1, b] matrix to a length-b vector reads entry q from (0, q).  Generic in the
  extent b and in the element type.
-/
import Idealize.ShloMosaic.Lib.Pipeline.Value
import Idealize.ShloMosaic.Lib.ValueIdx

noncomputable section

namespace Cert.RowOfVector

open Idealize.ShloMosaic Idealize.ShloMosaic.ValueIdx

variable {α : Type} {b : ℕ}

/-- A vector viewed as one row reads, at (u, q), the vector's entry q. -/
theorem row_apply (v : (⟨1, ![b]⟩ : Shape).Idx → α) (h : (⟨1, ![b]⟩ : Shape).ShapeCasts ⟨2, ![1, b]⟩) (u : Fin 1)
    (q : Fin b) : shapeCast ⟨2, ![1, b]⟩ v h (ix2 u q) = v (ix1 q) := by
  refine shapeCast_apply v h (ix2 u q) (ix1 q) ?_
  rw [Shape.rowMajor_val_one, Shape.rowMajor_val_two]
  show q.val = u.val * b + q.val
  have hu : u.val = 0 := by have := u.isLt; omega
  rw [hu]; omega

/-- One row viewed as a vector reads, at q, the row's entry (0, q). -/
theorem vector_apply (v : (⟨2, ![1, b]⟩ : Shape).Idx → α) (h : (⟨2, ![1, b]⟩ : Shape).ShapeCasts ⟨1, ![b]⟩)
    (q : Fin b) : shapeCast ⟨1, ![b]⟩ v h (ix1 q) = v (ix2 (0 : Fin 1) q) := by
  refine shapeCast_apply v h (ix1 q) (ix2 (0 : Fin 1) q) ?_
  rw [Shape.rowMajor_val_one, Shape.rowMajor_val_two]
  show (0 : ℕ) * b + q.val = q.val
  omega

end Cert.RowOfVector

end
-- ==== Proof.RefSpelling.lean ====
/-
  The reference's spelling of the three dense steps, and that each IS the specification's step over the extended reals.

    a host dot_general of an [n, k] by a [k, c] array                           = dense
    a + (the bias as a row, spread down the rows), maximum with a splat zero     = biasClamp a (the bias as a row)
    v = a + bias row;  M = max (−∞, row maxima of v from −∞), kept as a column and spread back;  s = v − M;
    s − spread (log (row sums of exp s, from zero))                              = logSoftmax a (the bias as a row)

  Two identities of the extended reals do the work in the last one: −∞ is the least element (max (−∞) y = y), and the
  sum's starting value is zero.
-/
import proofs.«101711_j9938554323112_1_alg».proof.ReferenceIdeal
import proofs.«101711_j9938554323112_1_alg».proof.Proof.LibRowSteps
import proofs.«101711_j9938554323112_1_alg».proof.Proof.HostChain
import proofs.«101711_j9938554323112_1_alg».proof.Proof.LibDotNN
import proofs.«101711_j9938554323112_1_alg».proof.Proof.LibBroadcastRows
import proofs.«101711_j9938554323112_1_alg».proof.Proof.LibHostBroadcasts
import proofs.«101711_j9938554323112_1_alg».proof.Proof.LibRowOfVector
import proofs.«101711_j9938554323112_1_alg».proof.Proof.LibSlabLayout
import Idealize.ShloMosaic.Lib.Pipeline.Value
import Idealize.ShloMosaic.Lib.ValueIdx
import Idealize.ShloMosaic.PureOps.Ideal.Laws

noncomputable section

namespace Cert.Gcn.Ref

open Idealize.ShloMosaic Idealize.ShloMosaic.ValueIdx Cert.ReferenceIdeal Cert.ReferenceIdeal.Facts₀ Cert.ReferenceIdeal.Facts Cert.Gcn

section Spelling

variable {F : FTy → Type} [FloatOps F] [Cert.ReferenceIdeal.Facts]

def dense128 (x : (⟨S40000x128, .f32⟩ : BufTy).Contents (Elt F)) (w : (⟨S128x128, .f32⟩ : BufTy).Contents (Elt F)) :
    (⟨S40000x128, .f32⟩ : BufTy).Contents (Elt F) :=
  Host.dotGeneral dot_S40000x128_S128x128_S40000x128_1_0_0_1_n_n none x w

def dense40 (x : (⟨S40000x128, .f32⟩ : BufTy).Contents (Elt F)) (w : (⟨S128x40, .f32⟩ : BufTy).Contents (Elt F)) :
    (⟨S40000x40, .f32⟩ : BufTy).Contents (Elt F) :=
  Host.dotGeneral dot_S40000x128_S128x40_S40000x40_1_0_0_1_n_n none x w

def biasClampH (a : (⟨S40000x128, .f32⟩ : BufTy).Contents (Elt F)) (b : (⟨S128, .f32⟩ : BufTy).Contents (Elt F)) :
    (⟨S40000x128, .f32⟩ : BufTy).Contents (Elt F) :=
  maximumf (addf a (broadcastInDim S40000x128 ![0, 1] bcast_S1x128_S40000x128_0_1 (broadcastInDim S1x128 ![1] bcast_S128_S1x128_1 b)))
    (broadcastInDim S40000x128 ![] bcast_S_S40000x128 (constant S_ .f32 0x00000000#32))

def biased40 (a : (⟨S40000x40, .f32⟩ : BufTy).Contents (Elt F)) (b : (⟨S40, .f32⟩ : BufTy).Contents (Elt F)) :
    (⟨S40000x40, .f32⟩ : BufTy).Contents (Elt F) :=
  addf a (broadcastInDim S40000x40 ![0, 1] bcast_S1x40_S40000x40_0_1 (broadcastInDim S1x40 ![1] bcast_S40_S1x40_1 b))

def rowMaxH (x : (⟨S40000x40, .f32⟩ : BufTy).Contents (Elt F)) : (⟨S40000, .f32⟩ : BufTy).Contents (Elt F) :=
  maximumf (broadcastInDim S40000 ![] bcast_S_S40000 (constant S_ .f32 0xFF800000#32))
    (Host.reduce FloatOps.maximumf x (constant S_ .f32 0xFF800000#32) reducesTo_S40000x40_S40000_d1 h_S_)

def centered (x : (⟨S40000x40, .f32⟩ : BufTy).Contents (Elt F)) : (⟨S40000x40, .f32⟩ : BufTy).Contents (Elt F) :=
  subf x (broadcastInDim S40000x40 ![0, 1] bcast_S40000x1_S40000x40_0_1 (broadcastInDim S40000x1 ![0] bcast_S40000_S40000x1_0 (rowMaxH x)))

def logSoftmaxH (x : (⟨S40000x40, .f32⟩ : BufTy).Contents (Elt F)) : (⟨S40000x40, .f32⟩ : BufTy).Contents (Elt F) :=
  subf (centered x) (broadcastInDim S40000x40 ![0, 1] bcast_S40000x1_S40000x40_0_1
    (Host.log (broadcastInDim S40000x1 ![0] bcast_S40000_S40000x1_0
      (Host.reduceAdd (Host.exp (centered x)) (constant S_ .f32 0x00000000#32) reducesTo_S40000x40_S40000_d1 h_S_))))

end Spelling

/-! ## Each is the specification's step -/

variable [Cert.ReferenceIdeal.Facts] [Cert.KernelIdeal.Facts]

theorem dense128_eq (x : (⟨S40000x128, .f32⟩ : BufTy).Contents (Elt Ideal)) (w : (⟨S128x128, .f32⟩ : BufTy).Contents (Elt Ideal)) :
    dense128 x w = dense (n := 40000) (k := 128) (c := 128) x w := by
  funext i
  obtain ⟨p, q, rfl⟩ : ∃ (p : Fin 40000) (q : Fin 128), i = ix2 p q := ⟨i 0, i 1, eq_ix2 i⟩
  unfold dense128
  exact (Cert.DotNN.dotGeneral_apply _ rfl none x w p q).trans rfl

theorem dense40_eq (x : (⟨S40000x128, .f32⟩ : BufTy).Contents (Elt Ideal)) (w : (⟨S128x40, .f32⟩ : BufTy).Contents (Elt Ideal)) :
    dense40 x w = dense (n := 40000) (k := 128) (c := 40) x w := by
  funext i
  obtain ⟨p, q, rfl⟩ : ∃ (p : Fin 40000) (q : Fin 40), i = ix2 p q := ⟨i 0, i 1, eq_ix2 i⟩
  unfold dense40
  exact (Cert.DotNN.dotGeneral_apply _ rfl none x w p q).trans rfl

theorem biasClampH_eq (a : (⟨S40000x128, .f32⟩ : BufTy).Contents (Elt Ideal)) (b : (⟨S128, .f32⟩ : BufTy).Contents (Elt Ideal)) :
    biasClampH a b = biasClamp (n := 40000) (c := 128) a (Host.row128 b) := by
  funext i
  obtain ⟨p, q, rfl⟩ : ∃ (p : Fin 40000) (q : Fin 128), i = ix2 p q := ⟨i 0, i 1, eq_ix2 i⟩
  unfold biasClampH Host.row128
  rw [biasClamp_apply, maximumf_apply, addf_apply, Cert.BroadcastRows.row_apply, Cert.BroadcastRows.unit_apply,
    Cert.HostBroadcasts.scalar_apply, Cert.RowOfVector.row_apply]
  rfl

/-- −∞ is the least extended real. -/
theorem negInf_max (y : EReal) : max negInfW y = y := by
  simp [negInfW, Ideal.ofBits, Ideal.ieee]

/-- Row p of a + bias row, in the host's spelling, is the specification's shifted row. -/
theorem biased40_apply (a : (⟨S40000x40, .f32⟩ : BufTy).Contents (Elt Ideal)) (b : (⟨S40, .f32⟩ : BufTy).Contents (Elt Ideal))
    (p : Fin 40000) (j : Fin 40) : biased40 a b (ix2 p j) = shifted (n := 40000) (c := 40) a (Host.row40 b) p j := by
  unfold biased40 shifted Host.row40
  rw [addf_apply, Cert.BroadcastRows.row_apply, Cert.BroadcastRows.unit_apply, Cert.RowOfVector.row_apply]

theorem hostExp_apply {s : Shape} {φ : FTy} (v : FVec Ideal s φ) (i : s.Idx) : Host.exp v i = Ideal.exp (v i) := rfl
theorem hostLog_apply {s : Shape} {φ : FTy} (v : FVec Ideal s φ) (i : s.Idx) : Host.log v i = Ideal.log (v i) := rfl

/-- The host's maximum over the columns of row p, from −∞, is the fold of max from −∞. -/
theorem reduceMax_apply (x : FVec Ideal S40000x40 .f32) (p : Fin 40000) :
    Host.reduce FloatOps.maximumf x (constant (F := Ideal) S_ .f32 0xFF800000#32) reducesTo_S40000x40_S40000_d1 h_S_ (ix1 p)
      = rowMax (fun j : Fin 40 => x (ix2 p j)) := by
  have hr : S40000x40.Reduces [(1 : Fin 2)] S40000 := by decide
  refine (Host.reduce_eq_fold_single FloatOps.maximumf x _ reducesTo_S40000x40_S40000_d1 hr h_S_ (ix1 p)).trans ?_
  have hf : (x ∘ hr.lift (ix1 p)) = fun k : Fin 40 => x (ix2 p k) := funext fun k => congrArg x (Cert.SlabLayout.lift_row hr p k)
  rw [hf]
  rfl

/-- The host's sum over the columns of row p, from zero, is the sum of the row. -/
theorem reduceAdd_apply (y : FVec Ideal S40000x40 .f32) (p : Fin 40000) :
    Host.reduceAdd y (constant (F := Ideal) S_ .f32 0x00000000#32) reducesTo_S40000x40_S40000_d1 h_S_ (ix1 p)
      = ∑ k : Fin 40, y (ix2 p k) := by
  have hr : S40000x40.Reduces [(1 : Fin 2)] S40000 := by decide
  refine (Ideal.hostReduceAdd_single reducesTo_S40000x40_S40000_d1 hr y (Ideal.ofBits .f32 0x00000000#32) (ix1 p)).trans ?_
  rw [Ideal.ofBits_zero_f32, zero_add]
  exact Finset.sum_congr rfl fun k _ => congrArg y (Cert.SlabLayout.lift_row hr p k)

/-- The host's row maximum (from −∞, then once more against −∞) is the fold of max from −∞. -/
theorem rowMaxH_apply (x : (⟨S40000x40, .f32⟩ : BufTy).Contents (Elt Ideal)) (p : Fin 40000) :
    rowMaxH x (ix1 p) = rowMax (fun j : Fin 40 => x (ix2 p j)) := by
  unfold rowMaxH
  rw [maximumf_apply, Cert.HostBroadcasts.scalar_apply, reduceMax_apply]
  exact negInf_max _

theorem centered_apply (x : (⟨S40000x40, .f32⟩ : BufTy).Contents (Elt Ideal)) (p : Fin 40000) (j : Fin 40) :
    centered x (ix2 p j) = x (ix2 p j) - rowMax (fun j : Fin 40 => x (ix2 p j)) := by
  unfold centered
  rw [subf_apply, Cert.HostBroadcasts.col_rows_apply, Cert.HostBroadcasts.col_apply, rowMaxH_apply]

theorem logSoftmaxH_eq (a : (⟨S40000x40, .f32⟩ : BufTy).Contents (Elt Ideal)) (b : (⟨S40, .f32⟩ : BufTy).Contents (Elt Ideal)) :
    logSoftmaxH (biased40 a b) = logSoftmax (n := 40000) (c := 40) a (Host.row40 b) := by
  funext i
  obtain ⟨p, q, rfl⟩ : ∃ (p : Fin 40000) (q : Fin 40), i = ix2 p q := ⟨i 0, i 1, eq_ix2 i⟩
  have hrow : (fun j : Fin 40 => biased40 a b (ix2 p j)) = shifted (n := 40000) (c := 40) a (Host.row40 b) p :=
    funext fun j => biased40_apply a b p j
  unfold logSoftmaxH
  rw [logSoftmax_apply, subf_apply, centered_apply, Cert.HostBroadcasts.col_rows_apply, hostLog_apply,
    Cert.HostBroadcasts.col_apply, reduceAdd_apply, hrow, biased40_apply]
  have hsum : (∑ k : Fin 40, Host.exp (centered (biased40 a b)) (ix2 p k))
      = ∑ j : Fin 40, Ideal.exp (shifted (n := 40000) (c := 40) a (Host.row40 b) p j
          - rowMax (shifted (n := 40000) (c := 40) a (Host.row40 b) p)) :=
    Finset.sum_congr rfl fun k _ => by rw [hostExp_apply, centered_apply, hrow, biased40_apply]
  rw [hsum]
  rfl

end Cert.Gcn.Ref

end
-- ==== Proof.LibTRefRoundTrip.lean ====
/-
  A reusable lemma: a value carried to a buffer's own type and back.

  The operations of an outlined function (a reference's relu, log_softmax, …) name their buffers through typed
  references; a value of the stated type is carried to the buffer's own type when written and carried back when read.
  The two transports are along one equation of buffer types and its reverse, so together they are the identity —
  whatever the reference, and without looking the buffer's type up: substitute the equation.
-/
import Idealize.ShloMosaic.Lib.StableHlo

noncomputable section

namespace Cert.TRefRoundTrip

open Idealize.ShloMosaic Idealize.ShloMosaic.StableHlo

/-- Contents carried to a buffer's own type and back are the contents. -/
theorem ofBuf_toBuf {sg : RefSig} {T : BufTy} {Val : EltTy → Type} (x : TRef sg T) (v : T.Contents Val) :
    x.ofBuf (x.toBuf v) = v := by
  obtain ⟨r, h, h1, h2⟩ := x
  subst h
  rfl

end Cert.TRefRoundTrip

end
-- ==== Proof.RefValue.lean ====
/-
  What the reference's run leaves in its result array, as the network function of the six arguments.

  The reference is one line of 117 host operations. Cut in four: the first seven make the edge lists (sources, targets);
  the next fifty make the first feature transform, the per-edge scaling, the aggregation, bias and clamp, and the second
  feature transform; the next forty-two make the scaling once more (the same function of the same edge lists) and the
  second aggregation; the last eighteen add the bias and take the log-softmax. Each stretch is read from ANY buffer contents as a function of the few
  buffers it reads; the folds compose; and each dense step in the host's spelling is the specification's step.
-/
import proofs.«101711_j9938554323112_1_alg».proof.Proof.RefRunPatched
import proofs.«101711_j9938554323112_1_alg».proof.Proof.RefSpelling
import proofs.«101711_j9938554323112_1_alg».proof.Proof.GcnNetwork
import proofs.«101711_j9938554323112_1_alg».proof.Proof.LibAfterSplit
import proofs.«101711_j9938554323112_1_alg».proof.Proof.LibTRefRoundTrip
import proofs.«101711_j9938554323112_1_alg».proof.Proof.Gen.KernelIdeal
import proofs.«101711_j9938554323112_1_alg».proof.Proof.Gen.ReferenceIdeal
import Idealize.ShloMosaic.Lib.StableHlo.Run

set_option maxRecDepth 16384

noncomputable section

namespace Cert.Gcn.RefValue

open Cert.ReferenceIdeal Cert.ReferenceIdeal.Gen Idealize.ShloMosaic Idealize.ShloMosaic.TcCoe Idealize.SL.Sem
open Idealize.ShloMosaic.StableHlo Cert.ReferenceIdeal.ValueP

/-! ## The three stretches, from any buffer contents -/

section Stretches

variable {F : FTy → Type} [FloatOps F] (V : Valuation τ sig (Elt F))

theorem sources : after ((ops (F := F)).take 7) V (Proc.devRef .tc main_v3) = Cert.Gcn.Host.srcOf (V (Proc.devRef .tc main_arg1)) := by
  simp only [ops, List.take]
  after_results
  rfl
theorem targets : after ((ops (F := F)).take 7) V (Proc.devRef .tc main_v6) = Cert.Gcn.Host.dstOf (V (Proc.devRef .tc main_arg1)) := by
  simp only [ops, List.take]
  after_results
  rfl
theorem head_main_arg0 : after ((ops (F := F)).take 7) V (Proc.devRef .tc main_arg0) = V (Proc.devRef .tc main_arg0) := by
  simp only [ops, List.take]
  after_results_simp
theorem head_main_arg2 : after ((ops (F := F)).take 7) V (Proc.devRef .tc main_arg2) = V (Proc.devRef .tc main_arg2) := by
  simp only [ops, List.take]
  after_results_simp
theorem head_main_arg3 : after ((ops (F := F)).take 7) V (Proc.devRef .tc main_arg3) = V (Proc.devRef .tc main_arg3) := by
  simp only [ops, List.take]
  after_results_simp
theorem head_main_arg4 : after ((ops (F := F)).take 7) V (Proc.devRef .tc main_arg4) = V (Proc.devRef .tc main_arg4) := by
  simp only [ops, List.take]
  after_results_simp
theorem head_main_arg5 : after ((ops (F := F)).take 7) V (Proc.devRef .tc main_arg5) = V (Proc.devRef .tc main_arg5) := by
  simp only [ops, List.take]
  after_results_simp

/-- The middle stretch: the second feature transform of the clamped, biased, aggregated first feature transform. -/
theorem transformed : after (((ops (F := F)).drop 7).take 50) V (Proc.devRef .tc main_v45)
    = Cert.Gcn.Ref.dense40
        (Cert.Gcn.Ref.biasClampH
          (Cert.Gcn.Host.aggregate128 (Cert.Gcn.Ref.dense128 (V (Proc.devRef .tc main_arg0)) (V (Proc.devRef .tc main_arg2)))
            (V (Proc.devRef .tc main_v3)) (V (Proc.devRef .tc main_v6))
            (Cert.Gcn.Host.normOf (V (Proc.devRef .tc main_v3)) (V (Proc.devRef .tc main_v6))))
          (V (Proc.devRef .tc main_arg3)))
        (V (Proc.devRef .tc main_arg4)) := by
  simp only [ops, List.take, List.drop]
  after_results_simp
  rfl
theorem mid_main_v3 : after (((ops (F := F)).drop 7).take 50) V (Proc.devRef .tc main_v3) = V (Proc.devRef .tc main_v3) := by
  simp only [ops, List.take, List.drop]
  after_results_simp
theorem mid_main_v6 : after (((ops (F := F)).drop 7).take 50) V (Proc.devRef .tc main_v6) = V (Proc.devRef .tc main_v6) := by
  simp only [ops, List.take, List.drop]
  after_results_simp
theorem mid_main_arg5 : after (((ops (F := F)).drop 7).take 50) V (Proc.devRef .tc main_arg5) = V (Proc.devRef .tc main_arg5) := by
  simp only [ops, List.take, List.drop]
  after_results_simp

/-- The next forty-two operations: the scaling once more and the second aggregation. -/
theorem aggregatedScores : after ((((ops (F := F)).drop 7).drop 50).take 42) V (Proc.devRef .tc main_v78)
    = Cert.Gcn.Host.aggregate40 (V (Proc.devRef .tc main_v45)) (V (Proc.devRef .tc main_v3)) (V (Proc.devRef .tc main_v6))
        (Cert.Gcn.Host.normOf (V (Proc.devRef .tc main_v3)) (V (Proc.devRef .tc main_v6))) := by
  simp only [ops, List.take, List.drop]
  after_results_simp
  rfl
theorem late_main_arg5 : after ((((ops (F := F)).drop 7).drop 50).take 42) V (Proc.devRef .tc main_arg5) = V (Proc.devRef .tc main_arg5) := by
  simp only [ops, List.take, List.drop]
  after_results_simp

/-- The last eighteen operations: the bias and the log-softmax of every row. -/
theorem finished : after ((((ops (F := F)).drop 7).drop 50).drop 42) V (Proc.devRef .tc main_v82)
    = Cert.Gcn.Ref.logSoftmaxH (Cert.Gcn.Ref.biased40 (V (Proc.devRef .tc main_v78)) (V (Proc.devRef .tc main_arg5))) := by
  simp only [ops, List.drop]
  after_results_simp
  simp only [Cert.TRefRoundTrip.ofBuf_toBuf]
  rfl

end Stretches

/-! ## The fold of the whole line -/

/-- The line is its first seven operations, the next fifty, the next forty-two, and the last eighteen. -/
theorem fold_split (W : Valuation τ sig (Elt Ideal)) (b : DevRef τ sig) :
    after (ops (F := Ideal)) W b
      = after ((((ops (F := Ideal)).drop 7).drop 50).drop 42) (after ((((ops (F := Ideal)).drop 7).drop 50).take 42)
          (after (((ops (F := Ideal)).drop 7).take 50) (after ((ops (F := Ideal)).take 7) W))) b :=
  (congrFun (Cert.AfterSplit.after_take_drop (ops (F := Ideal)) 7 W) b).trans
    ((congrFun (Cert.AfterSplit.after_take_drop ((ops (F := Ideal)).drop 7) 50 _) b).trans
      (congrFun (Cert.AfterSplit.after_take_drop (((ops (F := Ideal)).drop 7).drop 50) 42 _) b))

/-- THE RESULT: the reference's result array is the network of the six arguments. -/
theorem result (m : (ℓ : Loc nD τ sig) → Buf (Elt Ideal) ℓ) (c : Dev nD) :
    after (ops (F := Ideal)) (launchContents m c) (Proc.devRef .tc main_v82)
      = Cert.Gcn.network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  refine (fold_split _ _).trans ((finished _).trans ?_)
  rw [aggregatedScores, late_main_arg5, transformed, mid_main_v3, mid_main_v6, mid_main_arg5, sources, targets, head_main_arg0,
    head_main_arg2, head_main_arg3, head_main_arg4, head_main_arg5]
  rw [Cert.Gcn.Ref.dense128_eq, Cert.Gcn.Ref.biasClampH_eq, Cert.Gcn.Ref.dense40_eq, Cert.Gcn.Ref.logSoftmaxH_eq]
  rfl

end Cert.Gcn.RefValue

end
-- ==== Proof.lean ====
/-
  A two-layer graph convolution with a log-softmax head, as a kernel program and as its jnp reference: the five claims.

  Both programs compute, over the extended reals,

      out = logSoftmax (A (dense (biasClamp (A (dense x W₁)) b₁) W₂)) b₂,

  A the aggregation over the graph with self-loops (rows gathered at the edges' sources, scaled per edge by
  deg⁻¹ᐟ²(source)·deg⁻¹ᐟ²(target), summed into the targets). The kernel program leaves A to the host, with the very
  operations the reference uses, and makes the four dense steps in four launches over 20 blocks of 2000 rows; each
  dense step is row-local, so a launch's result array is the step of the whole arrays. The matrix unit's product of
  bf16-truncated operands into zeros is, over the extended reals, the host's dot_general (a truncation is the
  identity, both are the sum over the contracted axis). The reference takes the row maximum once more against −∞,
  which changes nothing (−∞ is the least element), and starts its row sums from zero. No law of arithmetic that
  could fail at an infinity is used, so the precondition is never opened.

  The frames of the two kernel programs are the generated ones; the reference's frame is its run with the result
  dropped; the idealization rewrote no operation, so `preserves` is trivial.
-/
import proofs.«101711_j9938554323112_1_alg».proof.Defs
import proofs.«101711_j9938554323112_1_alg».proof.Proof.Gen.Kernel
import proofs.«101711_j9938554323112_1_alg».proof.Proof.Gen.Kernel.Frame
import proofs.«101711_j9938554323112_1_alg».proof.Proof.Gen.KernelIdeal
import proofs.«101711_j9938554323112_1_alg».proof.Proof.Gen.KernelIdeal.Frame
import proofs.«101711_j9938554323112_1_alg».proof.Proof.Gen.ReferenceIdeal
import proofs.«101711_j9938554323112_1_alg».proof.Proof.Gen.Pre_finite_inputs
import proofs.«101711_j9938554323112_1_alg».proof.Proof.KernelRun
import proofs.«101711_j9938554323112_1_alg».proof.Proof.KernelValue
import proofs.«101711_j9938554323112_1_alg».proof.Proof.RefRunPatched
import proofs.«101711_j9938554323112_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the network of the (agreeing) arguments in the result array. -/
theorem algebraic : Cert.algebraic_KernelIdeal_ReferenceIdeal := by
  intro m ρ m' ρ' _ hagree
  refine ⟨fun c => Cert.Gcn.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Gcn.KernelValue.result m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.ValueP.run (F := Ideal) m' ρ')
    refine (Cert.Gcn.RefValue.result m' c).trans ?_
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
